-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x256x256 : Shape := ⟨4, ![16, 16, 256, 256]⟩
abbrev S1 : Shape := ⟨1, ![1]⟩
abbrev S_ : Shape := ⟨0, ![]⟩

class Facts : Prop where
  bcast_S_S16x16x256x256 : S_.BroadcastsInDim S16x16x256x256 (![] : Fin 0 → Fin S16x16x256x256.rank)
  reducesTo_S16x16x256x256_S_d0_1_2_3 : S16x16x256x256.ReducesTo [0, 1, 2, 3] S_
  h_S_ : 0 < S_.numel

variable [Facts]

def fn {F : FTy → Type} [FloatOps F] (main_arg0 : FVec F S16x16x256x256 .f32) (main_arg1 : FVec F S16x16x256x256 .f32) (main_arg2 : IVec S16x16x256x256 1) (main_arg3 : IVec S1 32) : IVec S_ 1 :=
  let main_v0 : FVec F S16x16x256x256 .f32 := Host.absf main_arg0
  let main_cst : FVec F S_ .f32 := constant S_ .f32 0x7F800000#32
  let main_v1 : FVec F S16x16x256x256 .f32 := broadcastInDim S16x16x256x256 ![] bcast_S_S16x16x256x256 main_cst
  let main_v2 : IVec S16x16x256x256 1 := cmpf .olt main_v0 main_v1
  let main_c : IVec S_ 1 := constantI S_ 1 1#1
  let main_v3 : IVec S_ 1 := (fun x v => Host.reduce IntOp.andi x v reducesTo_S16x16x256x256_S_d0_1_2_3 h_S_) main_v2 main_c
  let main_v4 : FVec F S16x16x256x256 .f32 := Host.absf main_arg1
  let main_cst_0 : FVec F S_ .f32 := constant S_ .f32 0x7F800000#32
  let main_v5 : FVec F S16x16x256x256 .f32 := broadcastInDim S16x16x256x256 ![] bcast_S_S16x16x256x256 main_cst_0
  let main_v6 : IVec S16x16x256x256 1 := cmpf .olt main_v4 main_v5
  let main_c_1 : IVec S_ 1 := constantI S_ 1 1#1
  let main_v7 : IVec S_ 1 := (fun x v => Host.reduce IntOp.andi x v reducesTo_S16x16x256x256_S_d0_1_2_3 h_S_) main_v6 main_c_1
  let main_v8 : IVec S_ 1 := andi main_v3 main_v7
  main_v8
-- ==== Kernel.lean ====
abbrev S16x16x256x256 : Shape := ⟨4, ![16, 16, 256, 256]⟩
abbrev S1 : Shape := ⟨1, ![1]⟩
abbrev S16x16x1x1 : Shape := ⟨4, ![16, 16, 1, 1]⟩
abbrev S16x1x1x1 : Shape := ⟨4, ![16, 1, 1, 1]⟩
abbrev S1x16x256x256 : Shape := ⟨4, ![1, 16, 256, 256]⟩
abbrev S1x16x1x1 : Shape := ⟨4, ![1, 16, 1, 1]⟩
abbrev S1x1x1x1 : Shape := ⟨4, ![1, 1, 1, 1]⟩
abbrev S1x16x256 : Shape := ⟨3, ![1, 16, 256]⟩
abbrev S1x16x256x1 : Shape := ⟨4, ![1, 16, 256, 1]⟩
abbrev S1x16x1 : Shape := ⟨3, ![1, 16, 1]⟩
abbrev S1x256x256 : Shape := ⟨3, ![1, 256, 256]⟩
abbrev S1x1x256x256 : Shape := ⟨4, ![1, 1, 256, 256]⟩
abbrev S1x1x256 : Shape := ⟨3, ![1, 1, 256]⟩
abbrev S1x1x256x1 : Shape := ⟨4, ![1, 1, 256, 1]⟩
abbrev S1x1x1 : Shape := ⟨3, ![1, 1, 1]⟩
abbrev S16x16 : Shape := ⟨2, ![16, 16]⟩
abbrev S16 : Shape := ⟨1, ![16]⟩
abbrev S_ : Shape := ⟨0, ![]⟩

abbrev nBuf : Space → Nat
  | .hbm => 79
  | .vmem => 16
  | .smem => 0
  | _ => 0

abbrev bufTy : (tb : Table) → Fin (tcTables nBuf tb) → BufTy
  | .hbm, ⟨0, _⟩ => ⟨S16x16x256x256, .f32⟩
  | .hbm, ⟨1, _⟩ => ⟨S16x16x256x256, .f32⟩
  | .hbm, ⟨2, _⟩ => ⟨S16x16x256x256, .i1⟩
  | .hbm, ⟨3, _⟩ => ⟨S1, .i32⟩
  | .hbm, ⟨4, _⟩ => ⟨S16x16x256x256, .i32⟩
  | .hbm, ⟨5, _⟩ => ⟨S16x16x1x1, .f32⟩
  | .hbm, ⟨6, _⟩ => ⟨S16x16x1x1, .f32⟩
  | .hbm, ⟨7, _⟩ => ⟨S16x16x1x1, .f32⟩
  | .hbm, ⟨8, _⟩ => ⟨S16x16x1x1, .f32⟩
  | .hbm, ⟨9, _⟩ => ⟨S16x1x1x1, .f32⟩
  | .hbm, ⟨10, _⟩ => ⟨S16x16, .f32⟩
  | .hbm, ⟨11, _⟩ => ⟨S16x16, .f32⟩
  | .hbm, ⟨12, _⟩ => ⟨S16x16, .f32⟩
  | .hbm, ⟨13, _⟩ => ⟨S16x16, .f32⟩
  | .hbm, ⟨14, _⟩ => ⟨S16, .f32⟩
  | .hbm, ⟨15, _⟩ => ⟨S16x16, .f32⟩
  | .hbm, ⟨16, _⟩ => ⟨S_, .f32⟩
  | .hbm, ⟨17, _⟩ => ⟨S16x16, .f32⟩
  | .hbm, ⟨18, _⟩ => ⟨S16x16, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16, .f32⟩
  | .hbm, ⟨33, _⟩ => ⟨S16, .i1⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .i1⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .local _ .vmem, ⟨0, _⟩ => ⟨S1x16x256x256, .f32⟩
  | .local _ .vmem, ⟨1, _⟩ => ⟨S1x16x256x256, .f32⟩
  | .local _ .vmem, ⟨2, _⟩ => ⟨S1x16x256x256, .f32⟩
  | .local _ .vmem, ⟨3, _⟩ => ⟨S1x16x256x256, .f32⟩
  | .local _ .vmem, ⟨4, _⟩ => ⟨S1x16x256x256, .i32⟩
  | .local _ .vmem, ⟨5, _⟩ => ⟨S1x16x256x256, .i32⟩
  | .local _ .vmem, ⟨6, _⟩ => ⟨S1x16x1x1, .f32⟩
  | .local _ .vmem, ⟨7, _⟩ => ⟨S1x16x1x1, .f32⟩
  | .local _ .vmem, ⟨8, _⟩ => ⟨S1x16x1x1, .f32⟩
  | .local _ .vmem, ⟨9, _⟩ => ⟨S1x16x1x1, .f32⟩
  | .local _ .vmem, ⟨10, _⟩ => ⟨S1x16x1x1, .f32⟩
  | .local _ .vmem, ⟨11, _⟩ => ⟨S1x16x1x1, .f32⟩
  | .local _ .vmem, ⟨12, _⟩ => ⟨S1x16x1x1, .f32⟩
  | .local _ .vmem, ⟨13, _⟩ => ⟨S1x16x1x1, .f32⟩
  | .local _ .vmem, ⟨14, _⟩ => ⟨S1x1x1x1, .f32⟩
  | .local _ .vmem, ⟨15, _⟩ => ⟨S1x1x1x1, .f32⟩
  | _, _ => ⟨S16x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_cst_9 : Ref sig .tc := ⟨.hbm, 42, rfl⟩
abbrev main_v22 : Ref sig .tc := ⟨.hbm, 43, rfl⟩
abbrev main_v23 : Ref sig .tc := ⟨.hbm, 44, rfl⟩
abbrev main_cst_10 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_11 : Ref sig .tc := ⟨.hbm, 49, rfl⟩
abbrev main_call1_v0 : Ref sig .tc := ⟨.hbm, 50, rfl⟩
abbrev main_call1_v1 : Ref sig .tc := ⟨.hbm, 51, rfl⟩
abbrev main_v27 : Ref sig .tc := ⟨.hbm, 52, rfl⟩
abbrev main_cst_12 : Ref sig .tc := ⟨.hbm, 53, rfl⟩
abbrev main_v28 : Ref sig .tc := ⟨.hbm, 54, rfl⟩
abbrev main_cst_13 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_14 : Ref sig .tc := ⟨.hbm, 59, rfl⟩
abbrev main_call2_v0 : Ref sig .tc := ⟨.hbm, 60, rfl⟩
abbrev main_call2_v1 : Ref sig .tc := ⟨.hbm, 61, rfl⟩
abbrev main_v32 : Ref sig .tc := ⟨.hbm, 62, rfl⟩
abbrev main_cst_15 : Ref sig .tc := ⟨.hbm, 63, rfl⟩
abbrev main_v33 : Ref sig .tc := ⟨.hbm, 64, rfl⟩
abbrev main_cst_16 : Ref sig .tc := ⟨.hbm, 65, rfl⟩
abbrev main_v34 : Ref sig .tc := ⟨.hbm, 66, rfl⟩
abbrev main_cst_17 : Ref sig .tc := ⟨.hbm, 67, rfl⟩
abbrev main_v35 : Ref sig .tc := ⟨.hbm, 68, rfl⟩
abbrev main_cst_18 : Ref sig .tc := ⟨.hbm, 69, rfl⟩
abbrev main_v36 : Ref sig .tc := ⟨.hbm, 70, rfl⟩
abbrev main_cst_19 : Ref sig .tc := ⟨.hbm, 71, rfl⟩
abbrev main_v37 : Ref sig .tc := ⟨.hbm, 72, rfl⟩
abbrev main_cst_20 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_21 : Ref sig .tc := ⟨.hbm, 77, rfl⟩
abbrev main_v41 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  natLt_1_32 : 1 < 32
  inb_S1x16x256x256_S1x16x256x256_0_0_0_0 : ∀ a, (![0, 0, 0, 0] : Fin 4 → Nat) a + S1x16x256x256.size a ≤ S1x16x256x256.size a
  h_S1x16x256x256 : 0 < S1x16x256x256.numel
  reduces_S1x16x256x256_S1x16x256 : S1x16x256x256.Reduces [3] S1x16x256
  shapeCasts_S1x16x256_S1x16x256x1 : S1x16x256.ShapeCasts S1x16x256x1
  reduces_S1x16x256x1_S1x16x1 : S1x16x256x1.Reduces [2] S1x16x1
  shapeCasts_S1x16x1_S1x16x1x1 : S1x16x1.ShapeCasts S1x16x1x1
  inb_S1x16x1x1_S1x16x1x1_0_0_0_0 : ∀ a, (![0, 0, 0, 0] : Fin 4 → Nat) a + S1x16x1x1.size a ≤ S1x16x1x1.size a
  h_S1x16x1x1 : 0 < S1x16x1x1.numel
  reduces_S1x16x256x256_S1x256x256 : S1x16x256x256.Reduces [1] S1x256x256
  shapeCasts_S1x256x256_S1x1x256x256 : S1x256x256.ShapeCasts S1x1x256x256
  broadcasts_S1x1x256x256_S1x16x256x256 : S1x1x256x256.Broadcasts S1x16x256x256
  reduces_S1x1x256x256_S1x1x256 : S1x1x256x256.Reduces [3] S1x1x256
  shapeCasts_S1x1x256_S1x1x256x1 : S1x1x256.ShapeCasts S1x1x256x1
  reduces_S1x1x256x1_S1x1x1 : S1x1x256x1.Reduces [2] S1x1x1
  shapeCasts_S1x1x1_S1x1x1x1 : S1x1x1.ShapeCasts S1x1x1x1
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S16x16x1x1_S16x16 : S16x16x1x1.ShapeCasts S16x16
  shapeCasts_S16x1x1x1_S16 : S16x1x1x1.ShapeCasts S16
  bcast_S_S16x16 : S_.BroadcastsInDim S16x16 (![] : Fin 0 → Fin S16x16.rank)
  reducesTo_S16x16_S16_d0 : S16x16.ReducesTo [0] S16
  h_S_ : 0 < S_.numel
  reducesTo_S16_S_d0 : S16.ReducesTo [0] S_
  bcast_S_S16 : S_.BroadcastsInDim S16 (![] : Fin 0 → Fin S16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S16x16x256x256.size a
  hwx0_0 : ∀ i : grid0.Coords, EltTy.bits .f32 = 32 ∨ (Rect.block (s := S16x16x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x256.size a ≤ S16x16x256x256.size a
  hwx0_1 : ∀ i : grid0.Coords, EltTy.bits .f32 = 32 ∨ (Rect.block (s := S16x16x256x256) S1x16x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S16x16x256x256.size a
  hwx0_2 : ∀ i : grid0.Coords, EltTy.bits .i32 = 32 ∨ (Rect.block (s := S16x16x256x256) S1x16x256x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1x1.size a ≤ S16x16x1x1.size a
  hwx0_3 : ∀ i : grid0.Coords, EltTy.bits .f32 = 32 ∨ (Rect.block (s := S16x16x1x1) S1x16x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1x1.size a ≤ S16x16x1x1.size a
  hwx0_4 : ∀ i : grid0.Coords, EltTy.bits .f32 = 32 ∨ (Rect.block (s := S16x16x1x1) S1x16x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x1x1.size a ≤ S16x16x1x1.size a
  hwx0_5 : ∀ i : grid0.Coords, EltTy.bits .f32 = 32 ∨ (Rect.block (s := S16x16x1x1) S1x16x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x1x1.size a ≤ S16x16x1x1.size a
  hwx0_6 : ∀ i : grid0.Coords, EltTy.bits .f32 = 32 ∨ (Rect.block (s := S16x16x1x1) S1x16x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1x1.size a ≤ S16x1x1x1.size a
  hwx0_7 : ∀ i : grid0.Coords, EltTy.bits .f32 = 32 ∨ (Rect.block (s := S16x1x1x1) S1x1x1x1.size (cc0_transform_7 i) (hinb0_7 i)).WholeWords (EltTy.packing .f32)

variable [Facts₀]

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x16x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x16x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x16x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_3) S1x16x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_4) S1x1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x16x256x256 : Shape := ⟨4, ![16, 16, 256, 256]⟩
abbrev S1 : Shape := ⟨1, ![1]⟩
abbrev S_ : Shape := ⟨0, ![]⟩
abbrev S16x256x256 : Shape := ⟨3, ![16, 256, 256]⟩
abbrev S16x1x256x256 : Shape := ⟨4, ![16, 1, 256, 256]⟩
abbrev S16 : Shape := ⟨1, ![16]⟩

abbrev nBuf : Space → Nat
  | .hbm => 80
  | .vmem => 0
  | .smem => 0
  | _ => 0

abbrev bufTy : (tb : Table) → Fin (tcTables nBuf tb) → BufTy
  | .hbm, ⟨0, _⟩ => ⟨S16x16x256x256, .f32⟩
  | .hbm, ⟨1, _⟩ => ⟨S16x16x256x256, .f32⟩
  | .hbm, ⟨2, _⟩ => ⟨S16x16x256x256, .i1⟩
  | .hbm, ⟨3, _⟩ => ⟨S1, .i32⟩
  | .hbm, ⟨4, _⟩ => ⟨S16x16x256x256, .f32⟩
  | .hbm, ⟨5, _⟩ => ⟨S16x16x256x256, .f32⟩
  | .hbm, ⟨6, _⟩ => ⟨S16x16x256x256, .f32⟩
  | .hbm, ⟨7, _⟩ => ⟨S_, .f32⟩
  | .hbm, ⟨8, _⟩ => ⟨S16x16x256x256, .f32⟩
  | .hbm, ⟨9, _⟩ => ⟨S16x16x256x256, .f32⟩
  | .hbm, ⟨10, _⟩ => ⟨S_, .i1⟩
  | .hbm, ⟨11, _⟩ => ⟨S16x256x256, .i1⟩
  | .hbm, ⟨12, _⟩ => ⟨S16x1x256x256, .i1⟩
  | .hbm, ⟨13, _⟩ => ⟨S16x1x256x256, .f32⟩
  | .hbm, ⟨14, _⟩ => ⟨S16x16x256x256, .f32⟩
  | .hbm, ⟨15, _⟩ => ⟨S_, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .i1⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x16x256x256, .f32⟩
  | .hbm, ⟨35, _⟩ => ⟨S_, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .i1⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16x16x256x256, .f32⟩
  | .hbm, ⟨55, _⟩ => ⟨S16x16x256x256, .f32⟩
  | .hbm, ⟨56, _⟩ => ⟨S_, .f32⟩
  | .hbm, ⟨57, _⟩ => ⟨S16, .f32⟩
  | .hbm, ⟨58, _⟩ => ⟨S16x16x256x256, .f32⟩
  | .hbm, ⟨59, _⟩ => ⟨S_, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .i1⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S16x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_cst_9 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_11 : Ref sig .tc := ⟨.hbm, 46, rfl⟩
abbrev main_call1_v0 : Ref sig .tc := ⟨.hbm, 47, rfl⟩
abbrev main_call1_v1 : Ref sig .tc := ⟨.hbm, 48, rfl⟩
abbrev main_v27 : Ref sig .tc := ⟨.hbm, 49, rfl⟩
abbrev main_cst_12 : Ref sig .tc := ⟨.hbm, 50, rfl⟩
abbrev main_v28 : Ref sig .tc := ⟨.hbm, 51, rfl⟩
abbrev main_cst_13 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_14 : Ref sig .tc := ⟨.hbm, 56, rfl⟩
abbrev main_v32 : Ref sig .tc := ⟨.hbm, 57, rfl⟩
abbrev main_v33 : Ref sig .tc := ⟨.hbm, 58, rfl⟩
abbrev main_cst_15 : Ref sig .tc := ⟨.hbm, 59, rfl⟩
abbrev main_v34 : Ref sig .tc := ⟨.hbm, 60, rfl⟩
abbrev main_cst_16 : Ref sig .tc := ⟨.hbm, 61, rfl⟩
abbrev main_v35 : Ref sig .tc := ⟨.hbm, 62, rfl⟩
abbrev main_v36 : Ref sig .tc := ⟨.hbm, 63, rfl⟩
abbrev main_cst_17 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_18 : Ref sig .tc := ⟨.hbm, 68, rfl⟩
abbrev main_call2_v0 : Ref sig .tc := ⟨.hbm, 69, rfl⟩
abbrev main_call2_v1 : Ref sig .tc := ⟨.hbm, 70, rfl⟩
abbrev main_v40 : Ref sig .tc := ⟨.hbm, 71, rfl⟩
abbrev main_cst_19 : Ref sig .tc := ⟨.hbm, 72, rfl⟩
abbrev main_v41 : Ref sig .tc := ⟨.hbm, 73, rfl⟩
abbrev main_cst_20 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_21 : Ref sig .tc := ⟨.hbm, 78, rfl⟩
abbrev main_v45 : Ref sig .tc := ⟨.hbm, 79, rfl⟩

abbrev nD : Nat := 1
abbrev τ : Topo := Topo.v7x

variable {F : FTy → Type} [FloatOps F]

class Facts₀ : Prop where
  bcast_S_S16x16x256x256 : S_.BroadcastsInDim S16x16x256x256 (![] : Fin 0 → Fin S16x16x256x256.rank)
  reducesTo_S16x16x256x256_S16x256x256_d1 : S16x16x256x256.ReducesTo [1] S16x256x256
  h_S_ : 0 < S_.numel
  bcast_S16x256x256_S16x1x256x256_0_2_3 : S16x256x256.BroadcastsInDim S16x1x256x256 (![0, 2, 3] : Fin 3 → Fin S16x1x256x256.rank)
  reducesTo_S16x16x256x256_S16_d0_2_3 : S16x16x256x256.ReducesTo [0, 2, 3] S16
  bcast_S_S16 : S_.BroadcastsInDim S16 (![] : Fin 0 → Fin S16.rank)
  reducesTo_S16_S_d0 : S16.ReducesTo [0] S_
  bcast_S16x1x256x256_S16x16x256x256_0_1_2_3 : S16x1x256x256.BroadcastsInDim S16x16x256x256 (![0, 1, 2, 3] : Fin 4 → Fin S16x16x256x256.rank)

variable [Facts₀]

class Facts : Prop extends Facts₀ where

variable [Facts]
-- ==== Proof.FrameK.lean ====
/- A block is the slice, at the grid point's leading index, of one of three staged arrays of shape 16x16x256x256: two
   argument arrays and the 32-bit conversion of the boolean third argument, which the one host line before the region
   makes. At each of the sixteen points the body loads the three blocks whole and stores once, whole, into four buffers
   of shape 1x16x1x1 and one of shape 1x1x1x1, so each output buffer then holds exactly its stored value, a function of
   the three blocks. The host lines after the region reshape, reduce and combine the five results into fresh buffers and
   write no array of the pipeline, so every argument array ends as launched. -/
import proofs.«110176_j44032004718833_2_alg».proof.Proof.Gen.Kernel.Launch
import proofs.«110176_j44032004718833_2_alg».proof.Proof.Gen.Kernel.Skeleton
import proofs.«110176_j44032004718833_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents of core `c` when the region is entered: the launch contents after the one host line that
    precedes the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- The program is the line before the region, the region, and seven stretches of lines after it: it reduces to the
    region continued by those stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4, hostOps1_5, hostOps1_6].map StableHlo.seq)) :=
  Pipeline.hmain_around cfgs 0 defs₀ 𝒱₀ m main [hostOps0] [hostOps1, hostOps1_1, hostOps1_2, hostOps1_3, hostOps1_4, hostOps1_5, hostOps1_6] (by simp only [List.Forall]; exact hostOps0_sub)
    (by simp only [List.Forall]; exact hostOps0_fresh) main_chain

/-- Every buffer a later line touches is an unscoped reference of the core, so an array of the pipeline or a buffer
    that bypasses the region. -/
theorem sfx_sub : ∀ ops ∈ ([hostOps1, hostOps1_1, hostOps1_2, hostOps1_3, hostOps1_4, hostOps1_5, hostOps1_6] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- The later lines allocate nothing. -/
theorem sfx_fresh : ∀ ops ∈ ([hostOps1, hostOps1_1, hostOps1_2, hostOps1_3, hostOps1_4, hostOps1_5, hostOps1_6] : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- The eight arrays of the pipeline, listed: the two staged argument arrays, the converted mask, the five results. -/
theorem arr_cases (w : Fin cfg0.W) : Pipeline.arrRef spec0 w ∈ ([main_arg0, main_arg1, main_v0, main_v1_0, main_v1_1, main_v1_2, main_v1_3, main_v1_4] : List (Ref sig .tc)) := by
  revert w; decide
/-- A line that writes the one buffer `y`, where `y` is none of the eight arrays, writes no array of the pipeline. -/
theorem keep_of {op : HloOp τ sig (Elt F)} (y : Ref sig .tc) (hw : op.writes = {Proc.devRef .tc y})
    (hy : y ∉ ([main_arg0, main_arg1, main_v0, main_v1_0, main_v1_1, main_v1_2, main_v1_3, main_v1_4] : List (Ref sig .tc))) :
    ∀ w, Proc.devRef .tc (Pipeline.arrRef spec0 w) ∉ op.writes := by
  intro w h
  rw [hw, Finset.mem_singleton] at h
  exact hy (Proc.devRef_injective _ h ▸ arr_cases w)
theorem hostOps1_keeps : (hostOps1 : List (HloOp τ sig (Elt F))).Forall fun op => ∀ w, Proc.devRef .tc (Pipeline.arrRef spec0 w) ∉ op.writes :=
  ⟨keep_of main_v2 rfl (by decide), keep_of main_v3 rfl (by decide), keep_of main_v4 rfl (by decide), keep_of main_v5 rfl (by decide), keep_of main_v6 rfl (by decide), keep_of main_v7 rfl (by decide), keep_of main_cst rfl (by decide), keep_of main_v8 rfl (by decide), keep_of main_v9 rfl (by decide), keep_of main_cst_0 rfl (by decide), keep_of main_v10 rfl (by decide), keep_of main_cst_1 rfl (by decide), keep_of main_v11 rfl (by decide), keep_of main_cst_2 rfl (by decide), keep_of main_v12 rfl (by decide), keep_of main_cst_3 rfl (by decide), keep_of main_v13 rfl (by decide), keep_of main_cst_4 rfl (by decide), keep_of main_v14 rfl (by decide), keep_of main_cst_5 rfl (by decide), keep_of main_v15 rfl (by decide), keep_of main_cst_6 rfl (by decide), keep_of main_v16 rfl (by decide), keep_of main_v17 rfl (by decide), keep_of main_cst_7 rfl (by decide), keep_of main_v18 rfl (by decide), keep_of main_v19 rfl (by decide), keep_of main_v20 rfl (by decide), keep_of main_cst_8 rfl (by decide)⟩
theorem hostOps1_1_keeps : (hostOps1_1 : List (HloOp τ sig (Elt F))).Forall fun op => ∀ w, Proc.devRef .tc (Pipeline.arrRef spec0 w) ∉ op.writes :=
  ⟨keep_of main_call0_v0 rfl (by decide), keep_of main_call0_v1 rfl (by decide), keep_of main_v21 rfl (by decide)⟩
theorem hostOps1_2_keeps : (hostOps1_2 : List (HloOp τ sig (Elt F))).Forall fun op => ∀ w, Proc.devRef .tc (Pipeline.arrRef spec0 w) ∉ op.writes :=
  ⟨keep_of main_cst_9 rfl (by decide), keep_of main_v22 rfl (by decide), keep_of main_v23 rfl (by decide), keep_of main_cst_10 rfl (by decide), keep_of main_v24 rfl (by decide), keep_of main_v25 rfl (by decide), keep_of main_v26 rfl (by decide), keep_of main_cst_11 rfl (by decide)⟩
theorem hostOps1_3_keeps : (hostOps1_3 : List (HloOp τ sig (Elt F))).Forall fun op => ∀ w, Proc.devRef .tc (Pipeline.arrRef spec0 w) ∉ op.writes :=
  ⟨keep_of main_call1_v0 rfl (by decide), keep_of main_call1_v1 rfl (by decide), keep_of main_v27 rfl (by decide)⟩
theorem hostOps1_4_keeps : (hostOps1_4 : List (HloOp τ sig (Elt F))).Forall fun op => ∀ w, Proc.devRef .tc (Pipeline.arrRef spec0 w) ∉ op.writes :=
  ⟨keep_of main_cst_12 rfl (by decide), keep_of main_v28 rfl (by decide), keep_of main_cst_13 rfl (by decide), keep_of main_v29 rfl (by decide), keep_of main_v30 rfl (by decide), keep_of main_v31 rfl (by decide), keep_of main_cst_14 rfl (by decide)⟩
theorem hostOps1_5_keeps : (hostOps1_5 : List (HloOp τ sig (Elt F))).Forall fun op => ∀ w, Proc.devRef .tc (Pipeline.arrRef spec0 w) ∉ op.writes :=
  ⟨keep_of main_call2_v0 rfl (by decide), keep_of main_call2_v1 rfl (by decide), keep_of main_v32 rfl (by decide)⟩
theorem hostOps1_6_keeps : (hostOps1_6 : List (HloOp τ sig (Elt F))).Forall fun op => ∀ w, Proc.devRef .tc (Pipeline.arrRef spec0 w) ∉ op.writes :=
  ⟨keep_of main_cst_15 rfl (by decide), keep_of main_v33 rfl (by decide), keep_of main_cst_16 rfl (by decide), keep_of main_v34 rfl (by decide), keep_of main_cst_17 rfl (by decide), keep_of main_v35 rfl (by decide), keep_of main_cst_18 rfl (by decide), keep_of main_v36 rfl (by decide), keep_of main_cst_19 rfl (by decide), keep_of main_v37 rfl (by decide), keep_of main_cst_20 rfl (by decide), keep_of main_v38 rfl (by decide), keep_of main_v39 rfl (by decide), keep_of main_v40 rfl (by decide), keep_of main_cst_21 rfl (by decide), keep_of main_v41 rfl (by decide)⟩
/-- Each later line writes its own result buffer only, and no result buffer is an array of the pipeline. -/
theorem sfx_keeps : ∀ ops ∈ ([hostOps1, hostOps1_1, hostOps1_2, hostOps1_3, hostOps1_4, hostOps1_5, hostOps1_6] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-- The one line before the region writes only the converted mask, so at region entry `main_arg0` still holds its
    launch contents. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one line before the region writes only the converted mask, so at region entry `main_arg1` still holds its
    launch contents. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one line before the region writes only the converted mask, so at region entry `main_arg2` still holds its
    launch contents. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one line before the region writes only the converted mask, so at region entry `main_arg3` still holds its
    launch contents. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- `main_arg2` is neither an array of the pipeline nor the result of a later line: after the later lines it holds its
    launch contents. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- `main_arg3` is neither an array of the pipeline nor the result of a later line: after the later lines it holds its
    launch contents. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- `main_arg0` is the array of input window 0: no write-back changes it and it is the result of no later line, so for
    proof data over the region-entry arrays it holds its launch contents after the later lines. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2, hostOps1_3, hostOps1_4, hostOps1_5, hostOps1_6] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (Pipeline.withArrays_arr spec0 launch0.win.arr_inj c (V0 m c) _ 0).trans
    (((dats 0 c).arrAt_in 0 rfl _).trans ((hA c 0).trans (V_main_arg0 m c)))

/-- `main_arg1` is the array of input window 1: no write-back changes it and it is the result of no later line, so for
    proof data over the region-entry arrays it holds its launch contents after the later lines. -/
theorem W_main_arg1 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2, hostOps1_3, hostOps1_4, hostOps1_5, hostOps1_6] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (Pipeline.withArrays_arr spec0 launch0.win.arr_inj c (V0 m c) _ 1).trans
    (((dats 0 c).arrAt_in 1 rfl _).trans ((hA c 1).trans (V_main_arg1 m c)))

/-! ## The windows' blocks -/

/-- What the array of window `w` holds, at region entry, on the window's block for point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- For any proof data over the region-entry array (`hA`) whose body keeps the buffer of input window 0 (`hafter`), that
    buffer holds the window's block when the body starts at `t`. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- For any proof data over the region-entry array (`hA`) whose body keeps the buffer of input window 1 (`hafter`), that
    buffer holds the window's block when the body starts at `t`. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- For any proof data over the region-entry array (`hA`) whose body keeps the buffer of input window 2 (`hafter`), that
    buffer holds the window's block when the body starts at `t`. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- The library's frame post, read at the four argument arrays on core `c`: `main_arg0` and `main_arg1` are the
    arrays of input windows, which no write-back changes; `main_arg2` and `main_arg3` are staged by no window and
    written by no later line. -/
theorem args_of_framePost (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1, hostOps1_1, hostOps1_2, hostOps1_3, hostOps1_4, hostOps1_5, hostOps1_6]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).2 main_arg2 (Pipeline.mem_restRefs_of main_arg2 (by decide) (by decide))).trans (W_main_arg2 m dats c),
   ((h c).2 main_arg3 (Pipeline.mem_restRefs_of main_arg3 (by decide) (by decide))).trans (W_main_arg3 m dats c)⟩

/-- The frame from a frame run: a run to the library's frame post is a run to the four argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_of_framePost m dats hA r h c) h

/-! ## The body's accesses -/

/-- The whole input block, as the rectangle the body loads through. -/
abbrev rIn : Rect S1x16x256x256 := Rect.unit (s := S1x16x256x256) ![0, 0, 0, 0] S1x16x256x256.size inb_S1x16x256x256_S1x16x256x256_0_0_0_0
/-- The whole 1x16x1x1 output buffer. -/
abbrev rF : Rect S1x16x1x1 := Rect.unit (s := S1x16x1x1) ![0, 0, 0, 0] S1x16x1x1.size inb_S1x16x1x1_S1x16x1x1_0_0_0_0
/-- The whole 1x1x1x1 output buffer. -/
abbrev rS : Rect S1x1x1x1 := Rect.unit (s := S1x1x1x1) ![0, 0, 0, 0] S1x1x1x1.size inb_S1x1x1x1_S1x1x1x1_0_0_0_0

/-! ## What the body leaves in each output buffer -/

/-- Output window 3: for each of the sixteen channels, the sum over the plane of |x0 - x1|. -/
def out0_3 (x0 x1 : Vec F S1x16x256x256 .f32) : Vec F S1x16x1x1 .f32 :=
  View.canon [⟨rF, k0_pay6 (View.ld x0 rIn) (View.ld x1 rIn)⟩]
/-- Output window 4: for each channel, the sum over the plane of |x0 - x1| times the indicator of x2 ≠ 0. -/
def out0_4 (x0 x1 : Vec F S1x16x256x256 .f32) (x2 : Vec F S1x16x256x256 .i32) : Vec F S1x16x1x1 .f32 :=
  View.canon [⟨rF, k0_pay7 (View.ld x0 rIn) (View.ld x1 rIn) (View.ld x2 rIn)⟩]
/-- Output window 5: for each channel, the sum over the plane of the indicator of x2 ≠ 0. -/
def out0_5 (x2 : Vec F S1x16x256x256 .i32) : Vec F S1x16x1x1 .f32 :=
  View.canon [⟨rF, k0_pay8 (View.ld x2 rIn)⟩]
/-- Output window 6: for each channel, the sum over the plane of |x0 - x1| times the maximum over the channels of the
    indicator of x2 ≠ 0. -/
def out0_6 (x0 x1 : Vec F S1x16x256x256 .f32) (x2 : Vec F S1x16x256x256 .i32) : Vec F S1x16x1x1 .f32 :=
  View.canon [⟨rF, k0_pay2 (k0_pay4 (View.ld x0 rIn) (View.ld x1 rIn)) (k0_pay5 (View.ld x2 rIn))⟩]
/-- Output window 7: the sum over the plane of the maximum over the channels of the indicator of x2 ≠ 0. -/
def out0_7 (x2 : Vec F S1x16x256x256 .i32) : Vec F S1x1x1x1 .f32 :=
  View.canon [⟨rS, k0_pay3 (k0_pay5 (View.ld x2 rIn))⟩]

/-- One whole-buffer store covers a 1x16x1x1 buffer. -/
theorem coverF (p0 : Vec F S1x16x1x1 .f32) (y : S1x16x1x1.Idx) :
    ∃ pc ∈ ([⟨rF, p0⟩] : List (View.Piece (Elt F) S1x16x1x1 .f32)), y ∈ pc.1.set :=
  View.cover_of_tiled [⟨rF, p0⟩] S1x16x1x1.size (by rfl) y
/-- One whole-buffer store covers a 1x1x1x1 buffer. -/
theorem coverS (p0 : Vec F S1x1x1x1 .f32) (y : S1x1x1x1.Idx) :
    ∃ pc ∈ ([⟨rS, p0⟩] : List (View.Piece (Elt F) S1x1x1x1 .f32)), y ∈ pc.1.set :=
  View.cover_of_tiled [⟨rS, p0⟩] S1x1x1x1.size (by rfl) y

/-! ## The body's triple -/

set_option maxHeartbeats 1000000 in
/-- Given the three input buffers whole at contents that read `x0`, `x1`, `x2` and the five output buffers whole at any
    contents, the body terminates without fault, returns the input buffers unchanged and leaves in each output buffer the
    canon of its one store, `out0_W`. -/
theorem sound_kernel (c : Dev nD) (E : Set ℕ) (i : grid0.Coords) (arg1 : Memref sig .tc .vmem S1x16x256x256 .f32) (harg1 : arg1.IsWhole) (arg2 : Memref sig .tc .vmem S1x16x256x256 .f32) (harg2 : arg2.IsWhole) (arg3 : Memref sig .tc .vmem S1x16x256x256 .i32) (harg3 : arg3.IsWhole) (arg4 : Memref sig .tc .vmem S1x16x1x1 .f32) (harg4 : arg4.IsWhole) (arg5 : Memref sig .tc .vmem S1x16x1x1 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x1x1x1 .f32) (harg8 : arg8.IsWhole)
    (x0 : Vec F S1x16x256x256 .f32) (x1 : Vec F S1x16x256x256 .f32) (x2 : Vec F S1x16x256x256 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2) ∗ owns (c : Thread nD τ) arg6 fullShare (out0_5 x2) ∗ owns (c : Thread nD τ) arg7 fullShare (out0_6 x0 x1 x2) ∗ owns (c : Thread nD τ) arg8 fullShare (out0_7 x2)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverF _)
  isplitl [H4]
  · iexists _; isplitr
    swap; · iexact H4
    ipureintro
    exact View.read_writes_eq_canon _ _ _ (coverF _)
  isplitl [H5]
  · iexists _; isplitr
    swap; · iexact H5
    ipureintro
    exact View.read_writes_eq_canon _ _ _ (coverF _)
  isplitl [H6]
  · iexists _; isplitr
    swap; · iexact H6
    ipureintro
    exact View.read_writes_eq_canon _ _ _ (coverF _)
  iexists _; isplitr
  swap; · iexact H7
  ipureintro
  exact View.read_writes_eq_canon _ _ _ (coverS _)

/-! ## The proof data -/

/-- Proof data on core `c`. Arrays: the region-entry contents. After the body at point `t`: an input buffer still holds
    its block, an output buffer holds `out0_W` of the blocks of the three inputs at `t`. Invariant: the scoped buffers
    outside the pipeline and the generator register, never touched. No signal is owed and every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t)
    | ⟨4, _⟩ => out0_4 (iblk m c 0 t) (iblk m c 1 t) (iblk m c 2 t)
    | ⟨5, _⟩ => out0_5 (iblk m c 2 t)
    | ⟨6, _⟩ => out0_6 (iblk m c 0 t) (iblk m c 1 t) (iblk m c 2 t)
    | ⟨7, _⟩ => out0_7 (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- The `after` field, one window at a time. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 2 t) := by dsimp only [dats]
theorem after0_6 (c : Dev nD) (t : Fin cfg0.N) : (dats m 0 c).after 6 t = out0_6 (iblk m c 0 t) (iblk m c 1 t) (iblk m c 2 t) := by dsimp only [dats]
theorem after0_7 (c : Dev nD) (t : Fin cfg0.N) : (dats m 0 c).after 7 t = out0_7 (iblk m c 2 t) := by dsimp only [dats]

/-- The three input buffers at the body's start, for this proof data. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- The resources at the body's call at point `t`: the invariant, the owed signals, and each of the eight staging
    buffers at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- The resources at its return: the same, each staging buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At every point the three input buffers hold their blocks, which is what the body's triple asks; the invariant and
    the owed signals are framed around it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation: its conjunction over the windows opened into the eight buffers. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the cores terminates, and in
    every final state each array of the pipeline holds what the library computes from the proof data and every other
    unscoped buffer what the later lines leave in it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hmain := hmain m Variants.none) (hA := A_eq m) (hΦ := fun _ _ => rfl)

/-- The frame: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.FrameKI.lean ====
/- A block is the slice, at the grid point's leading index, of one of three staged arrays of shape 16x16x256x256: two
   argument arrays and the 32-bit conversion of the boolean third argument, which the one host line before the region
   makes. At each of the sixteen points the body loads the three blocks whole and stores once, whole, into four buffers
   of shape 1x16x1x1 and one of shape 1x1x1x1, so each output buffer then holds exactly its stored value, a function of
   the three blocks. The host lines after the region reshape, reduce and combine the five results into fresh buffers and
   write no array of the pipeline, so every argument array ends as launched. -/
import proofs.«110176_j44032004718833_2_alg».proof.Proof.Gen.KernelIdeal.Launch
import proofs.«110176_j44032004718833_2_alg».proof.Proof.Gen.KernelIdeal.Skeleton
import proofs.«110176_j44032004718833_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents of core `c` when the region is entered: the launch contents after the one host line that
    precedes the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- The program is the line before the region, the region, and seven stretches of lines after it: it reduces to the
    region continued by those stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4, hostOps1_5, hostOps1_6].map StableHlo.seq)) :=
  Pipeline.hmain_around cfgs 0 defs₀ 𝒱₀ m main [hostOps0] [hostOps1, hostOps1_1, hostOps1_2, hostOps1_3, hostOps1_4, hostOps1_5, hostOps1_6] (by simp only [List.Forall]; exact hostOps0_sub)
    (by simp only [List.Forall]; exact hostOps0_fresh) main_chain

/-- Every buffer a later line touches is an unscoped reference of the core, so an array of the pipeline or a buffer
    that bypasses the region. -/
theorem sfx_sub : ∀ ops ∈ ([hostOps1, hostOps1_1, hostOps1_2, hostOps1_3, hostOps1_4, hostOps1_5, hostOps1_6] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- The later lines allocate nothing. -/
theorem sfx_fresh : ∀ ops ∈ ([hostOps1, hostOps1_1, hostOps1_2, hostOps1_3, hostOps1_4, hostOps1_5, hostOps1_6] : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- The eight arrays of the pipeline, listed: the two staged argument arrays, the converted mask, the five results. -/
theorem arr_cases (w : Fin cfg0.W) : Pipeline.arrRef spec0 w ∈ ([main_arg0, main_arg1, main_v0, main_v1_0, main_v1_1, main_v1_2, main_v1_3, main_v1_4] : List (Ref sig .tc)) := by
  revert w; decide
/-- A line that writes the one buffer `y`, where `y` is none of the eight arrays, writes no array of the pipeline. -/
theorem keep_of {op : HloOp τ sig (Elt F)} (y : Ref sig .tc) (hw : op.writes = {Proc.devRef .tc y})
    (hy : y ∉ ([main_arg0, main_arg1, main_v0, main_v1_0, main_v1_1, main_v1_2, main_v1_3, main_v1_4] : List (Ref sig .tc))) :
    ∀ w, Proc.devRef .tc (Pipeline.arrRef spec0 w) ∉ op.writes := by
  intro w h
  rw [hw, Finset.mem_singleton] at h
  exact hy (Proc.devRef_injective _ h ▸ arr_cases w)
theorem hostOps1_keeps : (hostOps1 : List (HloOp τ sig (Elt F))).Forall fun op => ∀ w, Proc.devRef .tc (Pipeline.arrRef spec0 w) ∉ op.writes :=
  ⟨keep_of main_v2 rfl (by decide), keep_of main_v3 rfl (by decide), keep_of main_v4 rfl (by decide), keep_of main_v5 rfl (by decide), keep_of main_v6 rfl (by decide), keep_of main_v7 rfl (by decide), keep_of main_cst rfl (by decide), keep_of main_v8 rfl (by decide), keep_of main_v9 rfl (by decide), keep_of main_cst_0 rfl (by decide), keep_of main_v10 rfl (by decide), keep_of main_cst_1 rfl (by decide), keep_of main_v11 rfl (by decide), keep_of main_cst_2 rfl (by decide), keep_of main_v12 rfl (by decide), keep_of main_cst_3 rfl (by decide), keep_of main_v13 rfl (by decide), keep_of main_cst_4 rfl (by decide), keep_of main_v14 rfl (by decide), keep_of main_cst_5 rfl (by decide), keep_of main_v15 rfl (by decide), keep_of main_cst_6 rfl (by decide), keep_of main_v16 rfl (by decide), keep_of main_v17 rfl (by decide), keep_of main_cst_7 rfl (by decide), keep_of main_v18 rfl (by decide), keep_of main_v19 rfl (by decide), keep_of main_v20 rfl (by decide), keep_of main_cst_8 rfl (by decide)⟩
theorem hostOps1_1_keeps : (hostOps1_1 : List (HloOp τ sig (Elt F))).Forall fun op => ∀ w, Proc.devRef .tc (Pipeline.arrRef spec0 w) ∉ op.writes :=
  ⟨keep_of main_call0_v0 rfl (by decide), keep_of main_call0_v1 rfl (by decide), keep_of main_v21 rfl (by decide)⟩
theorem hostOps1_2_keeps : (hostOps1_2 : List (HloOp τ sig (Elt F))).Forall fun op => ∀ w, Proc.devRef .tc (Pipeline.arrRef spec0 w) ∉ op.writes :=
  ⟨keep_of main_cst_9 rfl (by decide), keep_of main_v22 rfl (by decide), keep_of main_v23 rfl (by decide), keep_of main_cst_10 rfl (by decide), keep_of main_v24 rfl (by decide), keep_of main_v25 rfl (by decide), keep_of main_v26 rfl (by decide), keep_of main_cst_11 rfl (by decide)⟩
theorem hostOps1_3_keeps : (hostOps1_3 : List (HloOp τ sig (Elt F))).Forall fun op => ∀ w, Proc.devRef .tc (Pipeline.arrRef spec0 w) ∉ op.writes :=
  ⟨keep_of main_call1_v0 rfl (by decide), keep_of main_call1_v1 rfl (by decide), keep_of main_v27 rfl (by decide)⟩
theorem hostOps1_4_keeps : (hostOps1_4 : List (HloOp τ sig (Elt F))).Forall fun op => ∀ w, Proc.devRef .tc (Pipeline.arrRef spec0 w) ∉ op.writes :=
  ⟨keep_of main_cst_12 rfl (by decide), keep_of main_v28 rfl (by decide), keep_of main_cst_13 rfl (by decide), keep_of main_v29 rfl (by decide), keep_of main_v30 rfl (by decide), keep_of main_v31 rfl (by decide), keep_of main_cst_14 rfl (by decide)⟩
theorem hostOps1_5_keeps : (hostOps1_5 : List (HloOp τ sig (Elt F))).Forall fun op => ∀ w, Proc.devRef .tc (Pipeline.arrRef spec0 w) ∉ op.writes :=
  ⟨keep_of main_call2_v0 rfl (by decide), keep_of main_call2_v1 rfl (by decide), keep_of main_v32 rfl (by decide)⟩
theorem hostOps1_6_keeps : (hostOps1_6 : List (HloOp τ sig (Elt F))).Forall fun op => ∀ w, Proc.devRef .tc (Pipeline.arrRef spec0 w) ∉ op.writes :=
  ⟨keep_of main_cst_15 rfl (by decide), keep_of main_v33 rfl (by decide), keep_of main_cst_16 rfl (by decide), keep_of main_v34 rfl (by decide), keep_of main_cst_17 rfl (by decide), keep_of main_v35 rfl (by decide), keep_of main_cst_18 rfl (by decide), keep_of main_v36 rfl (by decide), keep_of main_cst_19 rfl (by decide), keep_of main_v37 rfl (by decide), keep_of main_cst_20 rfl (by decide), keep_of main_v38 rfl (by decide), keep_of main_v39 rfl (by decide), keep_of main_v40 rfl (by decide), keep_of main_cst_21 rfl (by decide), keep_of main_v41 rfl (by decide)⟩
/-- Each later line writes its own result buffer only, and no result buffer is an array of the pipeline. -/
theorem sfx_keeps : ∀ ops ∈ ([hostOps1, hostOps1_1, hostOps1_2, hostOps1_3, hostOps1_4, hostOps1_5, hostOps1_6] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-- The one line before the region writes only the converted mask, so at region entry `main_arg0` still holds its
    launch contents. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one line before the region writes only the converted mask, so at region entry `main_arg1` still holds its
    launch contents. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one line before the region writes only the converted mask, so at region entry `main_arg2` still holds its
    launch contents. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one line before the region writes only the converted mask, so at region entry `main_arg3` still holds its
    launch contents. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- `main_arg2` is neither an array of the pipeline nor the result of a later line: after the later lines it holds its
    launch contents. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- `main_arg3` is neither an array of the pipeline nor the result of a later line: after the later lines it holds its
    launch contents. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- `main_arg0` is the array of input window 0: no write-back changes it and it is the result of no later line, so for
    proof data over the region-entry arrays it holds its launch contents after the later lines. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2, hostOps1_3, hostOps1_4, hostOps1_5, hostOps1_6] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (Pipeline.withArrays_arr spec0 launch0.win.arr_inj c (V0 m c) _ 0).trans
    (((dats 0 c).arrAt_in 0 rfl _).trans ((hA c 0).trans (V_main_arg0 m c)))

/-- `main_arg1` is the array of input window 1: no write-back changes it and it is the result of no later line, so for
    proof data over the region-entry arrays it holds its launch contents after the later lines. -/
theorem W_main_arg1 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2, hostOps1_3, hostOps1_4, hostOps1_5, hostOps1_6] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (Pipeline.withArrays_arr spec0 launch0.win.arr_inj c (V0 m c) _ 1).trans
    (((dats 0 c).arrAt_in 1 rfl _).trans ((hA c 1).trans (V_main_arg1 m c)))

/-! ## The windows' blocks -/

/-- What the array of window `w` holds, at region entry, on the window's block for point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- For any proof data over the region-entry array (`hA`) whose body keeps the buffer of input window 0 (`hafter`), that
    buffer holds the window's block when the body starts at `t`. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- For any proof data over the region-entry array (`hA`) whose body keeps the buffer of input window 1 (`hafter`), that
    buffer holds the window's block when the body starts at `t`. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- For any proof data over the region-entry array (`hA`) whose body keeps the buffer of input window 2 (`hafter`), that
    buffer holds the window's block when the body starts at `t`. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- The library's frame post, read at the four argument arrays on core `c`: `main_arg0` and `main_arg1` are the
    arrays of input windows, which no write-back changes; `main_arg2` and `main_arg3` are staged by no window and
    written by no later line. -/
theorem args_of_framePost (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1, hostOps1_1, hostOps1_2, hostOps1_3, hostOps1_4, hostOps1_5, hostOps1_6]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).2 main_arg2 (Pipeline.mem_restRefs_of main_arg2 (by decide) (by decide))).trans (W_main_arg2 m dats c),
   ((h c).2 main_arg3 (Pipeline.mem_restRefs_of main_arg3 (by decide) (by decide))).trans (W_main_arg3 m dats c)⟩

/-- The frame from a frame run: a run to the library's frame post is a run to the four argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_of_framePost m dats hA r h c) h

/-! ## The body's accesses -/

/-- The whole input block, as the rectangle the body loads through. -/
abbrev rIn : Rect S1x16x256x256 := Rect.unit (s := S1x16x256x256) ![0, 0, 0, 0] S1x16x256x256.size inb_S1x16x256x256_S1x16x256x256_0_0_0_0
/-- The whole 1x16x1x1 output buffer. -/
abbrev rF : Rect S1x16x1x1 := Rect.unit (s := S1x16x1x1) ![0, 0, 0, 0] S1x16x1x1.size inb_S1x16x1x1_S1x16x1x1_0_0_0_0
/-- The whole 1x1x1x1 output buffer. -/
abbrev rS : Rect S1x1x1x1 := Rect.unit (s := S1x1x1x1) ![0, 0, 0, 0] S1x1x1x1.size inb_S1x1x1x1_S1x1x1x1_0_0_0_0

/-! ## What the body leaves in each output buffer -/

/-- Output window 3: for each of the sixteen channels, the sum over the plane of |x0 - x1|. -/
def out0_3 (x0 x1 : Vec F S1x16x256x256 .f32) : Vec F S1x16x1x1 .f32 :=
  View.canon [⟨rF, k0_pay6 (View.ld x0 rIn) (View.ld x1 rIn)⟩]
/-- Output window 4: for each channel, the sum over the plane of |x0 - x1| times the indicator of x2 ≠ 0. -/
def out0_4 (x0 x1 : Vec F S1x16x256x256 .f32) (x2 : Vec F S1x16x256x256 .i32) : Vec F S1x16x1x1 .f32 :=
  View.canon [⟨rF, k0_pay7 (View.ld x0 rIn) (View.ld x1 rIn) (View.ld x2 rIn)⟩]
/-- Output window 5: for each channel, the sum over the plane of the indicator of x2 ≠ 0. -/
def out0_5 (x2 : Vec F S1x16x256x256 .i32) : Vec F S1x16x1x1 .f32 :=
  View.canon [⟨rF, k0_pay8 (View.ld x2 rIn)⟩]
/-- Output window 6: for each channel, the sum over the plane of |x0 - x1| times the maximum over the channels of the
    indicator of x2 ≠ 0. -/
def out0_6 (x0 x1 : Vec F S1x16x256x256 .f32) (x2 : Vec F S1x16x256x256 .i32) : Vec F S1x16x1x1 .f32 :=
  View.canon [⟨rF, k0_pay2 (k0_pay4 (View.ld x0 rIn) (View.ld x1 rIn)) (k0_pay5 (View.ld x2 rIn))⟩]
/-- Output window 7: the sum over the plane of the maximum over the channels of the indicator of x2 ≠ 0. -/
def out0_7 (x2 : Vec F S1x16x256x256 .i32) : Vec F S1x1x1x1 .f32 :=
  View.canon [⟨rS, k0_pay3 (k0_pay5 (View.ld x2 rIn))⟩]

/-- One whole-buffer store covers a 1x16x1x1 buffer. -/
theorem coverF (p0 : Vec F S1x16x1x1 .f32) (y : S1x16x1x1.Idx) :
    ∃ pc ∈ ([⟨rF, p0⟩] : List (View.Piece (Elt F) S1x16x1x1 .f32)), y ∈ pc.1.set :=
  View.cover_of_tiled [⟨rF, p0⟩] S1x16x1x1.size (by rfl) y
/-- One whole-buffer store covers a 1x1x1x1 buffer. -/
theorem coverS (p0 : Vec F S1x1x1x1 .f32) (y : S1x1x1x1.Idx) :
    ∃ pc ∈ ([⟨rS, p0⟩] : List (View.Piece (Elt F) S1x1x1x1 .f32)), y ∈ pc.1.set :=
  View.cover_of_tiled [⟨rS, p0⟩] S1x1x1x1.size (by rfl) y

/-! ## The body's triple -/

set_option maxHeartbeats 1000000 in
/-- Given the three input buffers whole at contents that read `x0`, `x1`, `x2` and the five output buffers whole at any
    contents, the body terminates without fault, returns the input buffers unchanged and leaves in each output buffer the
    canon of its one store, `out0_W`. -/
theorem sound_kernel (c : Dev nD) (E : Set ℕ) (i : grid0.Coords) (arg1 : Memref sig .tc .vmem S1x16x256x256 .f32) (harg1 : arg1.IsWhole) (arg2 : Memref sig .tc .vmem S1x16x256x256 .f32) (harg2 : arg2.IsWhole) (arg3 : Memref sig .tc .vmem S1x16x256x256 .i32) (harg3 : arg3.IsWhole) (arg4 : Memref sig .tc .vmem S1x16x1x1 .f32) (harg4 : arg4.IsWhole) (arg5 : Memref sig .tc .vmem S1x16x1x1 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x1x1x1 .f32) (harg8 : arg8.IsWhole)
    (x0 : Vec F S1x16x256x256 .f32) (x1 : Vec F S1x16x256x256 .f32) (x2 : Vec F S1x16x256x256 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2) ∗ owns (c : Thread nD τ) arg6 fullShare (out0_5 x2) ∗ owns (c : Thread nD τ) arg7 fullShare (out0_6 x0 x1 x2) ∗ owns (c : Thread nD τ) arg8 fullShare (out0_7 x2)) -∗ K ⟨⟩))
      ⊢ wp frame (wpE (defs₀ (F := F)) Variants.none c none) E (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverF _)
  isplitl [H4]
  · iexists _; isplitr
    swap; · iexact H4
    ipureintro
    exact View.read_writes_eq_canon _ _ _ (coverF _)
  isplitl [H5]
  · iexists _; isplitr
    swap; · iexact H5
    ipureintro
    exact View.read_writes_eq_canon _ _ _ (coverF _)
  isplitl [H6]
  · iexists _; isplitr
    swap; · iexact H6
    ipureintro
    exact View.read_writes_eq_canon _ _ _ (coverF _)
  iexists _; isplitr
  swap; · iexact H7
  ipureintro
  exact View.read_writes_eq_canon _ _ _ (coverS _)

/-! ## The proof data -/

/-- Proof data on core `c`. Arrays: the region-entry contents. After the body at point `t`: an input buffer still holds
    its block, an output buffer holds `out0_W` of the blocks of the three inputs at `t`. Invariant: the scoped buffers
    outside the pipeline and the generator register, never touched. No signal is owed and every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t)
    | ⟨4, _⟩ => out0_4 (iblk m c 0 t) (iblk m c 1 t) (iblk m c 2 t)
    | ⟨5, _⟩ => out0_5 (iblk m c 2 t)
    | ⟨6, _⟩ => out0_6 (iblk m c 0 t) (iblk m c 1 t) (iblk m c 2 t)
    | ⟨7, _⟩ => out0_7 (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- The `after` field, one window at a time. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 2 t) := by dsimp only [dats]
theorem after0_6 (c : Dev nD) (t : Fin cfg0.N) : (dats m 0 c).after 6 t = out0_6 (iblk m c 0 t) (iblk m c 1 t) (iblk m c 2 t) := by dsimp only [dats]
theorem after0_7 (c : Dev nD) (t : Fin cfg0.N) : (dats m 0 c).after 7 t = out0_7 (iblk m c 2 t) := by dsimp only [dats]

/-- The three input buffers at the body's start, for this proof data. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- The resources at the body's call at point `t`: the invariant, the owed signals, and each of the eight staging
    buffers at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- The resources at its return: the same, each staging buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At every point the three input buffers hold their blocks, which is what the body's triple asks; the invariant and
    the owed signals are framed around it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation: its conjunction over the windows opened into the eight buffers. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the cores terminates, and in
    every final state each array of the pipeline holds what the library computes from the proof data and every other
    unscoped buffer what the later lines leave in it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hmain := hmain m Variants.none) (hA := A_eq m) (hΦ := fun _ _ => rfl)

/-- The frame: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.Spec.lean ====
import Idealize.ShloMosaic.PureOps.Ideal
import Idealize.ShloMosaic.PureOps.Ideal.Laws
import Idealize.ShloMosaic.Lib.ValueIdx

/-!
# Masked mean absolute differences, feature by feature

For arrays `X`, `Y` of shape [16, 16, 256, 256] (batch, feature, row, column) and a 0/1 mask `M` of the same shape, the
quantities below are, for a feature `q`: the sum of `|X - Y|` over the entries the mask selects, the number of selected
entries, the same two over the complement of the mask, and the same two over the entries where SOME feature's mask is set
at that (batch, row, column). Each pair gives a mean (zero where nothing is selected); the result is the mean over the
three kinds of the means over the features. The sums are written batch first, then row, then column.
-/

noncomputable section

namespace Cert.MaskedMeans

open Idealize.ShloMosaic Idealize.ShloMosaic.ValueIdx

/-- The arrays' shape. -/
abbrev A4 : Shape := ⟨4, ![16, 16, 256, 256]⟩
/-- A vector over the features. -/
abbrev V16 : Shape := ⟨1, ![16]⟩
/-- A scalar. -/
abbrev V0 : Shape := ⟨0, ![]⟩

/-- `|x - y|` on the extended reals. -/
def absd (x y : EReal) : EReal := max (x - y) (-(x - y))

/-- A mask bit as a number. -/
def bit (b : BitVec 1) : EReal := ((b.toNat : ℝ) : EReal)

/-- The largest of a feature-indexed family of mask values: 1 if some feature's bit is set, else 0. -/
def anyOf (g : Fin 16 → EReal) : EReal := (Finset.univ : Finset (Fin 16)).fold max ⊥ g

section Sums

variable (X Y : A4.Idx → EReal) (M : A4.Idx → BitVec 1)

def sumFeat (q : Fin 16) : EReal :=
  ∑ p : Fin 16, ∑ r : Fin 256, ∑ w : Fin 256, absd (X (ix4 p q r w)) (Y (ix4 p q r w)) * bit (M (ix4 p q r w))
def cntFeat (q : Fin 16) : EReal :=
  ∑ p : Fin 16, ∑ r : Fin 256, ∑ w : Fin 256, bit (M (ix4 p q r w))
def sumBg (q : Fin 16) : EReal :=
  ∑ p : Fin 16, ∑ r : Fin 256, ∑ w : Fin 256, absd (X (ix4 p q r w)) (Y (ix4 p q r w)) * (1 - bit (M (ix4 p q r w)))
def cntBg (q : Fin 16) : EReal :=
  ∑ p : Fin 16, ∑ r : Fin 256, ∑ w : Fin 256, (1 - bit (M (ix4 p q r w)))
def sumAll (q : Fin 16) : EReal :=
  ∑ p : Fin 16, ∑ r : Fin 256, ∑ w : Fin 256,
    absd (X (ix4 p q r w)) (Y (ix4 p q r w)) * anyOf (fun q' => bit (M (ix4 p q' r w)))
def cntAll : EReal :=
  ∑ p : Fin 16, ∑ r : Fin 256, ∑ w : Fin 256, anyOf (fun q' => bit (M (ix4 p q' r w)))

end Sums

/-- A feature-indexed family as a vector. -/
def vec (g : Fin 16 → EReal) : V16.Idx → EReal := fun i => g ⟨(i 0).val, (i 0).isLt⟩

theorem vec_ix1 (g : Fin 16 → EReal) (q : Fin 16) : vec g (ix1 q) = g q := rfl

theorem vec_ext {u v : V16.Idx → EReal} (h : ∀ q : Fin 16, u (ix1 q) = v (ix1 q)) : u = v := by
  funext i
  obtain ⟨q, rfl⟩ : ∃ q : Fin 16, i = ix1 q := ⟨⟨(i 0).val, (i 0).isLt⟩, funext fun t => by
    match t with
    | ⟨0, _⟩ => rfl⟩
  exact h q

/-- The mean of the selected entries, feature by feature: the sum over the count raised to at least one where the count
    is positive, zero elsewhere — spelt with the host's operations, as both programs spell it. -/
def ratio (hb : V0.BroadcastsInDim V16 (![] : Fin 0 → Fin V16.rank)) (s c : FVec Ideal V16 .f32) : FVec Ideal V16 .f32 :=
  select (cmpf (F := Ideal) .ogt c (broadcastInDim V16 ![] hb (constant (F := Ideal) V0 .f32 0x00000000#32)))
    (Host.divf (F := Ideal) s (maximumf c (broadcastInDim V16 ![] hb (constant (F := Ideal) V0 .f32 0x3F800000#32))))
    (broadcastInDim V16 ![] hb (id (constant (F := Ideal) V0 .f32 0x00000000#32)))

/-- The mean over the features of a vector. -/
def mean16 (hr : V16.ReducesTo [0] V0) (h0 : 0 < V0.numel) (a : FVec Ideal V16 .f32) : FVec Ideal V0 .f32 :=
  Host.divf (F := Ideal) (Host.reduceAdd (F := Ideal) a (constant (F := Ideal) V0 .f32 0x00000000#32) hr h0)
    (constant (F := Ideal) V0 .f32 0x41800000#32)

/-- The result: the mean of the three means, added in the programs' order. -/
def combine (hr : V16.ReducesTo [0] V0) (h0 : 0 < V0.numel) (a b c : FVec Ideal V16 .f32) : FVec Ideal V0 .f32 :=
  Host.divf (F := Ideal) (addf (addf (mean16 hr h0 a) (mean16 hr h0 b)) (mean16 hr h0 c))
    (constant (F := Ideal) V0 .f32 0x40400000#32)

/-- The whole result as a function of the arrays. -/
def result (hb : V0.BroadcastsInDim V16 (![] : Fin 0 → Fin V16.rank)) (hr : V16.ReducesTo [0] V0) (h0 : 0 < V0.numel)
    (X Y : A4.Idx → EReal) (M : A4.Idx → BitVec 1) : FVec Ideal V0 .f32 :=
  combine hr h0 (ratio hb (vec (sumFeat X Y M)) (vec (cntFeat M)))
    (ratio hb (vec (sumAll X Y M)) (vec (fun _ => cntAll M)))
    (ratio hb (vec (sumBg X Y M)) (vec (cntBg M)))

/-! ## Masks -/

theorem bit_zero : bit 0#1 = 0 := by simp [bit]
theorem bit_one : bit 1#1 = 1 := by simp [bit]

theorem bit_or (b c : BitVec 1) : bit (b ||| c) = max (bit b) (bit c) := by
  rcases BitVec.eq_zero_or_eq_one b with h | h <;> rcases BitVec.eq_zero_or_eq_one c with h' | h' <;> subst h <;> subst h' <;>
    simp [bit]

/-- Over a nonempty index set a maximum started from a lower bound of the family is the maximum started from the bottom. -/
theorem fold_max_of_le {ι : Type} (s : Finset ι) (hs : s.Nonempty) (f : ι → EReal) (b : EReal) (hb : ∀ x ∈ s, b ≤ f x) :
    s.fold max b f = s.fold max ⊥ f := by
  obtain ⟨x0, hx0⟩ := hs
  apply le_antisymm
  · rw [Finset.fold_max_le]
    exact ⟨(Finset.le_fold_max _).2 (Or.inr ⟨x0, hx0, hb x0 hx0⟩), fun x hx => (Finset.le_fold_max _).2 (Or.inr ⟨x, hx, le_refl _⟩)⟩
  · rw [Finset.fold_max_le]
    exact ⟨bot_le, fun x hx => (Finset.le_fold_max _).2 (Or.inr ⟨x, hx, le_refl _⟩)⟩

/-- The disjunction of the features' bits, as a number, is the largest of the bits as numbers. -/
theorem bit_fold_or (g : Fin 16 → BitVec 1) :
    bit ((Finset.univ : Finset (Fin 16)).fold (· ||| ·) 0#1 g) = anyOf (fun q => bit (g q)) := by
  unfold anyOf
  rw [← fold_max_of_le Finset.univ ⟨0, Finset.mem_univ _⟩ (fun q => bit (g q)) 0 (fun x _ => by
    unfold bit; exact_mod_cast Nat.cast_nonneg _)]
  have h := Finset.fold_hom (op := (· ||| ·)) (op' := max) (b := 0#1) (f := g) (s := (Finset.univ : Finset (Fin 16))) (m := bit)
    (fun x y => bit_or x y)
  rw [bit_zero] at h
  exact h.symm

end Cert.MaskedMeans

end
-- ==== Proof.LibTwoAxisSum.lean ====
import Idealize.ShloMosaic.PureOps.Ideal
import Idealize.ShloMosaic.PureOps.Ideal.Laws
import Idealize.ShloMosaic.Lib.ValueIdx
import Idealize.ShloMosaic.Lib.Pipeline.Value

/-!
# A sum over the two trailing axes of an [a, b, c, d] array, read at an entry (p, q)

Two programs of the same sum. The host reduces both axes at once: its result at `(p, q)` is the initial value plus the sum
of the entries `(p, q, r, w)` over all `r` and `w`. The vector unit goes one axis at a time and keeps the dimensions: lanes
first (`[a, b, c, d] → [a, b, c]`, viewed `[a, b, c, 1]`), then sublanes (`→ [a, b, 1]`, viewed `[a, b, 1, 1]` and at
last `[a, b]`); at `(p, q)` that is the sum over `r` of the sums over `w`. Both are the double sum
`∑ r, ∑ w, x (p, q, r, w)` on the extended reals, for any sizes.
-/

noncomputable section

namespace Idealize.ShloMosaic.TwoAxisSum

open Idealize.ShloMosaic Idealize.ShloMosaic.ValueIdx

variable {a b c d : ℕ}

/-- The entries of an `[a, b, c, d]` array that a reduction over axes 2 and 3 sends to `(p, q)` are the `(p, q, r, w)`:
    the filtered sum is the double sum. -/
theorem sum_filter_drop_last2 (h' : (⟨4, ![a, b, c, d]⟩ : Shape).ReducesTo [2, 3] ⟨2, ![a, b]⟩)
    (x : (⟨4, ![a, b, c, d]⟩ : Shape).Idx → EReal) (p : Fin a) (q : Fin b) :
    ∑ i ∈ Finset.univ.filter (fun i => h'.drop i = ix2 p q), x i = ∑ r : Fin c, ∑ w : Fin d, x (ix4 p q r w) := by
  have hdrop : ∀ i : (⟨4, ![a, b, c, d]⟩ : Shape).Idx, h'.drop i = ix2 p q ↔ ((i 0).val = p.val ∧ (i 1).val = q.val) := by
    intro i
    constructor
    · intro e
      exact ⟨congrArg (fun z : (⟨2, ![a, b]⟩ : Shape).Idx => (z 0).val) e, congrArg (fun z : (⟨2, ![a, b]⟩ : Shape).Idx => (z 1).val) e⟩
    · intro e
      funext t
      match t with
      | ⟨0, _⟩ => exact Fin.ext e.1
      | ⟨1, _⟩ => exact Fin.ext e.2
  rw [← Finset.sum_product']
  refine Finset.sum_nbij' (fun i => ((⟨(i 2).val, (i 2).isLt⟩ : Fin c), (⟨(i 3).val, (i 3).isLt⟩ : Fin d)))
    (fun rw => ix4 p q rw.1 rw.2) ?_ ?_ ?_ ?_ ?_
  · intro i _; exact Finset.mem_product.2 ⟨Finset.mem_univ _, Finset.mem_univ _⟩
  · intro rw _; exact Finset.mem_filter.2 ⟨Finset.mem_univ _, (hdrop _).2 ⟨rfl, rfl⟩⟩
  · intro i hi
    have e := (hdrop i).1 (Finset.mem_filter.1 hi).2
    funext t
    match t with
    | ⟨0, _⟩ => exact Fin.ext e.1.symm
    | ⟨1, _⟩ => exact Fin.ext e.2.symm
    | ⟨2, _⟩ => rfl
    | ⟨3, _⟩ => rfl
  · intro rw _; rfl
  · intro i hi
    have e := (hdrop i).1 (Finset.mem_filter.1 hi).2
    refine congrArg x (funext fun t => ?_)
    match t with
    | ⟨0, _⟩ => exact Fin.ext e.1
    | ⟨1, _⟩ => exact Fin.ext e.2
    | ⟨2, _⟩ => rfl
    | ⟨3, _⟩ => rfl

/-- The host's sum over the two trailing axes at `(p, q)`: the initial value plus the double sum. -/
theorem hostReduceAdd_last2 (h' : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h' x init (ix2 p q) = init + ∑ r : Fin c, ∑ w : Fin d, x (ix4 p q r w) := by
  unfold Ideal.hostReduceAdd
  rw [sum_filter_drop_last2]

/-- The vector unit's sum, lanes then sublanes with the dimensions kept, at `(p, q)`: the double sum. -/
theorem reduce_lanes_sublanes (v : FVec Ideal ⟨4, ![a, b, c, d]⟩ .f32) (acc1 acc2 : BitVec 32)
    (h1 : (⟨4, ![a, b, c, d]⟩ : Shape).Reduces [3] ⟨3, ![a, b, c]⟩) (hφ1 : FKind.Formats .f32) (hacc1 : acc1 = FKind.add.neutral .f32 hφ1)
    (hc1 : (⟨3, ![a, b, c]⟩ : Shape).ShapeCasts ⟨4, ![a, b, c, 1]⟩)
    (h2 : (⟨4, ![a, b, c, 1]⟩ : Shape).Reduces [2] ⟨3, ![a, b, 1]⟩) (hφ2 : FKind.Formats .f32) (hacc2 : acc2 = FKind.add.neutral .f32 hφ2)
    (hc2 : (⟨3, ![a, b, 1]⟩ : Shape).ShapeCasts ⟨4, ![a, b, 1, 1]⟩)
    (hc3 : (⟨4, ![a, b, 1, 1]⟩ : Shape).ShapeCasts ⟨2, ![a, b]⟩) (p : Fin a) (q : Fin b) :
    shapeCast ⟨2, ![a, b]⟩ (shapeCast ⟨4, ![a, b, 1, 1]⟩
        (multiReduction .add [2] ⟨3, ![a, b, 1]⟩
          (shapeCast ⟨4, ![a, b, c, 1]⟩ (multiReduction .add [3] ⟨3, ![a, b, c]⟩ v acc1 h1 hφ1 hacc1) hc1) acc2 h2 hφ2 hacc2) hc2) hc3
        (ix2 p q)
      = ∑ r : Fin c, ∑ w : Fin d, v (ix4 p q r w) := by
  have z1 : (0 : Fin 1) = ⟨0, Nat.one_pos⟩ := rfl
  refine (shapeCast_apply _ hc3 (ix2 p q) (ix4 p q (0 : Fin 1) (0 : Fin 1)) ?_).trans ?_
  · rw [Shape.rowMajor_val_four, Shape.rowMajor_val_two]
    show ((p.val * b + q.val) * 1 + 0) * 1 + 0 = p.val * b + q.val
    omega
  refine (shapeCast_apply _ hc2 (ix4 p q (0 : Fin 1) (0 : Fin 1)) (ix3 p q (0 : Fin 1)) ?_).trans ?_
  · rw [Shape.rowMajor_val_four, Shape.rowMajor_val_three]
    show (p.val * b + q.val) * 1 + 0 = ((p.val * b + q.val) * 1 + 0) * 1 + 0
    omega
  refine (Ideal.multiReduction_add_single _ acc2 h2 hφ2 hacc2 (ix3 p q (0 : Fin 1))).trans ?_
  refine Finset.sum_congr rfl fun r _ => ?_
  refine (shapeCast_apply _ hc1 _ (ix3 p q r) ?_).trans ?_
  · rw [Shape.rowMajor_val_four, Shape.rowMajor_val_three]
    show (p.val * b + q.val) * c + r.val = ((p.val * b + q.val) * c + r.val) * 1 + 0
    omega
  refine (Ideal.multiReduction_add_single v acc1 h1 hφ1 hacc1 (ix3 p q r)).trans ?_
  refine Finset.sum_congr rfl fun w _ => congrArg v (funext fun t => ?_)
  match t with
  | ⟨0, _⟩ => rfl
  | ⟨1, _⟩ => rfl
  | ⟨2, _⟩ => rfl
  | ⟨3, _⟩ => rfl

end Idealize.ShloMosaic.TwoAxisSum

end
-- ==== Proof.KerPay.lean ====
import proofs.«110176_j44032004718833_2_alg».proof.Proof.Gen.KernelIdeal.Skeleton
import proofs.«110176_j44032004718833_2_alg».proof.Proof.Spec
import proofs.«110176_j44032004718833_2_alg».proof.Proof.LibTwoAxisSum
import Idealize.ShloMosaic.PureOps.Ideal
import Idealize.ShloMosaic.PureOps.Ideal.Laws
import Idealize.ShloMosaic.Lib.ValueIdx
import Idealize.ShloMosaic.Lib.Pipeline.Value

/-!
# The values the kernel body stores, entry by entry

The body loads three blocks of shape [1, 16, 256, 256]: two float blocks x, y and a block of 32-bit mask words. With
d = |x - y| and m = the mask word as a number (1 where the word is not zero, else 0), it stores, for each feature q, the sums
over the rows and columns of d, of d * m and of m; and, with a = the largest of m over the features at a (row, column), the
sums of d * a for each feature and the sum of a. Each is read here at its entry on the extended reals as a double sum over
rows then columns.
-/

noncomputable section

namespace Cert.KernelIdeal.Pay

open Cert.KernelIdeal Cert.KernelIdeal.Gen Cert.MaskedMeans Idealize.ShloMosaic Idealize.ShloMosaic.ValueIdx

/-! ## The mask word as a number -/

/-- A 32-bit mask word as a number: 1 where the word is not zero, else 0 (the comparison's bit, widened, read as a signed integer). -/
def wordBit (v : BitVec 32) : EReal :=
  ((((IntOp.cmpi .ne v 0#32).setWidth 32).toInt : ℝ) : EReal)

/-- The zero word reads as 0. -/
theorem wordBit_zero : wordBit 0#32 = 0 := by
  have e : (IntOp.cmpi .ne (0#32 : BitVec 32) 0#32).setWidth 32 = 0#32 := by decide
  unfold wordBit
  rw [e]
  simp

/-- A nonzero word reads as 1. -/
theorem wordBit_of_ne {v : BitVec 32} (h : v ≠ 0#32) : wordBit v = 1 := by
  have hb : (v != 0#32) = true := bne_iff_ne.2 h
  have e : (IntOp.cmpi .ne v 0#32).setWidth 32 = 1#32 := by
    show (BitVec.ofBool (v != 0#32)).setWidth 32 = 1#32
    rw [hb]
    decide
  have e1 : (1#32 : BitVec 32).toInt = 1 := by decide
  unfold wordBit
  rw [e, e1]
  simp

/-- The word that widens a mask bit reads as that bit. -/
theorem wordBit_extui (b : BitVec 1) : wordBit (b.setWidth 32) = bit b := by
  rcases BitVec.eq_zero_or_eq_one b with h | h <;> subst h
  · have e : (0#1 : BitVec 1).setWidth 32 = 0#32 := by decide
    rw [e, wordBit_zero, bit_zero]
  · have e : (1#1 : BitVec 1).setWidth 32 = 1#32 := by decide
    rw [e, wordBit_of_ne (by decide), bit_one]

/-- The widening of a block of mask bits, entry by entry, reads as the bits. -/
theorem wordBit_extui_apply {s : Shape} (m : IVec s 1) (i : s.Idx) : wordBit (extui 32 m natLt_1_32 i) = bit (m i) :=
  wordBit_extui (m i)

/-- A mask word reads as 0 or 1. -/
theorem wordBit_cases (v : BitVec 32) : wordBit v = 0 ∨ wordBit v = 1 := by
  by_cases h : v = 0#32
  · left; subst h; exact wordBit_zero
  · right; exact wordBit_of_ne h

/-- A mask word reads as a nonnegative number. -/
theorem wordBit_nonneg (v : BitVec 32) : 0 ≤ wordBit v := by
  rcases wordBit_cases v with h | h <;> rw [h]
  exact zero_le_one

/-! ## The pointwise values -/

/-- The absolute difference, entry by entry. -/
theorem pay4_apply (v0 v1 : Vec Ideal S1x16x256x256 .f32) (i : S1x16x256x256.Idx) :
    k0_pay4 (F := Ideal) v0 v1 i = absd (v0 i) (v1 i) := rfl

/-- The mask as a number, entry by entry. -/
theorem pay5_apply (v4 : Vec Ideal S1x16x256x256 .i32) (i : S1x16x256x256.Idx) :
    k0_pay5 (F := Ideal) v4 i = wordBit (v4 i) := rfl

/-! ## The sum over rows and columns with the dimensions kept -/

variable {a b c d : ℕ}

/-- Lanes first, then sublanes, each reduced axis kept as a unit axis: at (p, q, 0, 0) the result is the double sum over
    rows and columns of the entries (p, q, r, w). -/
theorem reduce_lanes_sublanes_kept (v : FVec Ideal ⟨4, ![a, b, c, d]⟩ .f32) (acc1 acc2 : BitVec 32)
    (h1 : (⟨4, ![a, b, c, d]⟩ : Shape).Reduces [3] ⟨3, ![a, b, c]⟩) (hφ1 : FKind.Formats .f32) (hacc1 : acc1 = FKind.add.neutral .f32 hφ1)
    (hc1 : (⟨3, ![a, b, c]⟩ : Shape).ShapeCasts ⟨4, ![a, b, c, 1]⟩)
    (h2 : (⟨4, ![a, b, c, 1]⟩ : Shape).Reduces [2] ⟨3, ![a, b, 1]⟩) (hφ2 : FKind.Formats .f32) (hacc2 : acc2 = FKind.add.neutral .f32 hφ2)
    (hc2 : (⟨3, ![a, b, 1]⟩ : Shape).ShapeCasts ⟨4, ![a, b, 1, 1]⟩) (p : Fin a) (q : Fin b) :
    shapeCast ⟨4, ![a, b, 1, 1]⟩
        (multiReduction .add [2] ⟨3, ![a, b, 1]⟩
          (shapeCast ⟨4, ![a, b, c, 1]⟩ (multiReduction .add [3] ⟨3, ![a, b, c]⟩ v acc1 h1 hφ1 hacc1) hc1) acc2 h2 hφ2 hacc2) hc2
        (ix4 p q (0 : Fin 1) (0 : Fin 1))
      = ∑ r : Fin c, ∑ w : Fin d, v (ix4 p q r w) := by
  refine (shapeCast_apply _ hc2 (ix4 p q (0 : Fin 1) (0 : Fin 1)) (ix3 p q (0 : Fin 1)) ?_).trans ?_
  · rw [Shape.rowMajor_val_four, Shape.rowMajor_val_three]
    show (p.val * b + q.val) * 1 + 0 = ((p.val * b + q.val) * 1 + 0) * 1 + 0
    omega
  refine (Ideal.multiReduction_add_single _ acc2 h2 hφ2 hacc2 (ix3 p q (0 : Fin 1))).trans ?_
  refine Finset.sum_congr rfl fun r _ => ?_
  refine (shapeCast_apply _ hc1 _ (ix3 p q r) ?_).trans ?_
  · rw [Shape.rowMajor_val_four, Shape.rowMajor_val_three]
    show (p.val * b + q.val) * c + r.val = ((p.val * b + q.val) * c + r.val) * 1 + 0
    omega
  refine (Ideal.multiReduction_add_single v acc1 h1 hφ1 hacc1 (ix3 p q r)).trans ?_
  refine Finset.sum_congr rfl fun w _ => congrArg v (funext fun t => ?_)
  match t with
  | ⟨0, _⟩ => rfl
  | ⟨1, _⟩ => rfl
  | ⟨2, _⟩ => rfl
  | ⟨3, _⟩ => rfl

/-! ## The three per-feature sums of the first part -/

/-- The sum of the absolute differences of feature q. -/
theorem pay6_apply (v0 v1 : Vec Ideal S1x16x256x256 .f32) (q : Fin 16) :
    k0_pay6 (F := Ideal) v0 v1 (ix4 (0 : Fin 1) q (0 : Fin 1) (0 : Fin 1))
      = ∑ r : Fin 256, ∑ w : Fin 256, absd (v0 (ix4 (0 : Fin 1) q r w)) (v1 (ix4 (0 : Fin 1) q r w)) := by
  unfold k0_pay6
  exact reduce_lanes_sublanes_kept (k0_pay4 (F := Ideal) v0 v1) _ _ reduces_S1x16x256x256_S1x16x256 (.inl rfl) rfl
    shapeCasts_S1x16x256_S1x16x256x1 reduces_S1x16x256x1_S1x16x1 (.inl rfl) rfl shapeCasts_S1x16x1_S1x16x1x1 (0 : Fin 1) q

/-- The sum of the absolute differences of feature q over the entries its mask selects. -/
theorem pay7_apply (v0 v1 : Vec Ideal S1x16x256x256 .f32) (v4 : Vec Ideal S1x16x256x256 .i32) (q : Fin 16) :
    k0_pay7 (F := Ideal) v0 v1 v4 (ix4 (0 : Fin 1) q (0 : Fin 1) (0 : Fin 1))
      = ∑ r : Fin 256, ∑ w : Fin 256,
          absd (v0 (ix4 (0 : Fin 1) q r w)) (v1 (ix4 (0 : Fin 1) q r w)) * wordBit (v4 (ix4 (0 : Fin 1) q r w)) := by
  unfold k0_pay7
  exact reduce_lanes_sublanes_kept (mulf (k0_pay4 (F := Ideal) v0 v1) (k0_pay5 (F := Ideal) v4)) _ _
    reduces_S1x16x256x256_S1x16x256 (.inl rfl) rfl
    shapeCasts_S1x16x256_S1x16x256x1 reduces_S1x16x256x1_S1x16x1 (.inl rfl) rfl shapeCasts_S1x16x1_S1x16x1x1 (0 : Fin 1) q

/-- The number of entries of feature q its mask selects. -/
theorem pay8_apply (v4 : Vec Ideal S1x16x256x256 .i32) (q : Fin 16) :
    k0_pay8 (F := Ideal) v4 (ix4 (0 : Fin 1) q (0 : Fin 1) (0 : Fin 1))
      = ∑ r : Fin 256, ∑ w : Fin 256, wordBit (v4 (ix4 (0 : Fin 1) q r w)) := by
  unfold k0_pay8
  exact reduce_lanes_sublanes_kept (k0_pay5 (F := Ideal) v4) _ _ reduces_S1x16x256x256_S1x16x256 (.inl rfl) rfl
    shapeCasts_S1x16x256_S1x16x256x1 reduces_S1x16x256x1_S1x16x1 (.inl rfl) rfl shapeCasts_S1x16x1_S1x16x1x1 (0 : Fin 1) q

/-! ## The any-feature mask and the two sums of the second part -/

/-- The f32 pattern of minus infinity is the bottom of the extended reals. -/
theorem ofBits_neg_inf : FloatOps.ofBits (F := Ideal) .f32 0xFF800000#32 = (⊥ : EReal) := by
  simp [Ideal.ofBits, Ideal.ieee]

/-- The largest value over the features at a (row, column). -/
theorem pay1_apply (v7 : FVec Ideal S1x16x256x256 .f32) (r w : Fin 256) :
    k0_pay1 (F := Ideal) v7 (ix4 (0 : Fin 1) (0 : Fin 1) r w) = anyOf (fun q' : Fin 16 => v7 (ix4 (0 : Fin 1) q' r w)) := by
  unfold k0_pay1
  refine (shapeCast_apply _ shapeCasts_S1x256x256_S1x1x256x256 (ix4 (0 : Fin 1) (0 : Fin 1) r w) (ix3 (0 : Fin 1) r w) ?_).trans ?_
  · rw [Shape.rowMajor_val_four, Shape.rowMajor_val_three]
    show (0 * 256 + r.val) * 256 + w.val = ((0 * 1 + 0) * 256 + r.val) * 256 + w.val
    omega
  refine (Ideal.multiReduction_maximumf_single v7 _ reduces_S1x16x256x256_S1x256x256 (.inl rfl) rfl (ix3 (0 : Fin 1) r w)).trans ?_
  have hf : (v7 ∘ reduces_S1x16x256x256_S1x256x256.lift (ix3 (0 : Fin 1) r w)) = fun q' : Fin 16 => v7 (ix4 (0 : Fin 1) q' r w) :=
    funext fun q' => congrArg v7 (funext fun t => by
      match t with
      | ⟨0, _⟩ => rfl
      | ⟨1, _⟩ => rfl
      | ⟨2, _⟩ => rfl
      | ⟨3, _⟩ => rfl)
  exact congrArg₂ (fun (b : EReal) (f : Fin 16 → EReal) => Finset.fold max b f Finset.univ) ofBits_neg_inf hf

/-- A [1, 1, 256, 256] value spread over the features: the feature coordinate is forgotten. -/
theorem bcast_apply (u : FVec Ideal S1x1x256x256 .f32) (q : Fin 16) (r w : Fin 256) :
    broadcastTo S1x16x256x256 u broadcasts_S1x1x256x256_S1x16x256x256 (ix4 (0 : Fin 1) q r w)
      = u (ix4 (0 : Fin 1) (0 : Fin 1) r w) := by
  refine broadcastTo_apply u _ _ _ fun a => ?_
  match a with
  | ⟨0, _⟩ => rfl
  | ⟨1, _⟩ => rfl
  | ⟨2, _⟩ => rfl
  | ⟨3, _⟩ => rfl

/-- The sum over rows and columns of a value times the largest of another over the features. -/
theorem pay2_gen (v3 v7 : FVec Ideal S1x16x256x256 .f32) (q : Fin 16) :
    k0_pay2 (F := Ideal) v3 v7 (ix4 (0 : Fin 1) q (0 : Fin 1) (0 : Fin 1))
      = ∑ r : Fin 256, ∑ w : Fin 256, v3 (ix4 (0 : Fin 1) q r w) * anyOf (fun q' : Fin 16 => v7 (ix4 (0 : Fin 1) q' r w)) := by
  unfold k0_pay2
  refine (reduce_lanes_sublanes_kept
    (mulf v3 (broadcastTo S1x16x256x256 (k0_pay1 (F := Ideal) v7) broadcasts_S1x1x256x256_S1x16x256x256)) _ _
    reduces_S1x16x256x256_S1x16x256 (.inl rfl) rfl
    shapeCasts_S1x16x256_S1x16x256x1 reduces_S1x16x256x1_S1x16x1 (.inl rfl) rfl shapeCasts_S1x16x1_S1x16x1x1 (0 : Fin 1) q).trans ?_
  refine Finset.sum_congr rfl fun r _ => Finset.sum_congr rfl fun w _ => ?_
  show v3 (ix4 (0 : Fin 1) q r w)
      * broadcastTo S1x16x256x256 (k0_pay1 (F := Ideal) v7) broadcasts_S1x1x256x256_S1x16x256x256 (ix4 (0 : Fin 1) q r w) = _
  rw [bcast_apply, pay1_apply]

/-- The sum of the absolute differences of feature q over the entries some feature's mask selects. -/
theorem pay2_apply (v0 v1 : Vec Ideal S1x16x256x256 .f32) (v4 : Vec Ideal S1x16x256x256 .i32) (q : Fin 16) :
    k0_pay2 (F := Ideal) (k0_pay4 (F := Ideal) v0 v1) (k0_pay5 (F := Ideal) v4) (ix4 (0 : Fin 1) q (0 : Fin 1) (0 : Fin 1))
      = ∑ r : Fin 256, ∑ w : Fin 256,
          absd (v0 (ix4 (0 : Fin 1) q r w)) (v1 (ix4 (0 : Fin 1) q r w))
            * anyOf (fun q' : Fin 16 => wordBit (v4 (ix4 (0 : Fin 1) q' r w))) :=
  pay2_gen (k0_pay4 (F := Ideal) v0 v1) (k0_pay5 (F := Ideal) v4) q

/-- The sum over rows and columns of the largest of a value over the features. -/
theorem pay3_gen (v7 : FVec Ideal S1x16x256x256 .f32) :
    k0_pay3 (F := Ideal) v7 (ix4 (0 : Fin 1) (0 : Fin 1) (0 : Fin 1) (0 : Fin 1))
      = ∑ r : Fin 256, ∑ w : Fin 256, anyOf (fun q' : Fin 16 => v7 (ix4 (0 : Fin 1) q' r w)) := by
  unfold k0_pay3
  refine (reduce_lanes_sublanes_kept (k0_pay1 (F := Ideal) v7) _ _ reduces_S1x1x256x256_S1x1x256 (.inl rfl) rfl
    shapeCasts_S1x1x256_S1x1x256x1 reduces_S1x1x256x1_S1x1x1 (.inl rfl) rfl shapeCasts_S1x1x1_S1x1x1x1 (0 : Fin 1) (0 : Fin 1)).trans ?_
  exact Finset.sum_congr rfl fun r _ => Finset.sum_congr rfl fun w _ => pay1_apply v7 r w

/-- The number of (row, column) entries some feature's mask selects. -/
theorem pay3_apply (v4 : Vec Ideal S1x16x256x256 .i32) :
    k0_pay3 (F := Ideal) (k0_pay5 (F := Ideal) v4) (ix4 (0 : Fin 1) (0 : Fin 1) (0 : Fin 1) (0 : Fin 1))
      = ∑ r : Fin 256, ∑ w : Fin 256, anyOf (fun q' : Fin 16 => wordBit (v4 (ix4 (0 : Fin 1) q' r w))) :=
  pay3_gen (k0_pay5 (F := Ideal) v4)

end Cert.KernelIdeal.Pay

end
-- ==== Proof.KerArr.lean ====
/- What the five arrays the region writes hold after the run, as functions of the arrays it reads. Point `t` of the
   grid handles batch `t`: its three input blocks are the batch-`t` slices of the two float arrays and of the mask
   words, and each output block is row `t` of its array. So after the run the entry (p, q) of each [16,16,1,1] array is
   the plane sum (over the 256 x 256 rows and columns) that the body computes from batch p and feature q, and entry p of
   the [16,1,1,1] array the plane sum of the any-feature mask of batch p. -/
import proofs.«110176_j44032004718833_2_alg».proof.Proof.FrameKI
import proofs.«110176_j44032004718833_2_alg».proof.Proof.KerPay
import proofs.«110176_j44032004718833_2_alg».proof.Proof.Spec
import Idealize.ShloMosaic.Lib.Pipeline.Value
import Idealize.ShloMosaic.Lib.ValueIdx
import Idealize.ShloMosaic.Lib.StableHlo.Run

noncomputable section

namespace Cert.KernelIdeal.Arr

open Cert.KernelIdeal Cert.KernelIdeal.Gen Cert.KernelIdeal.Frame Cert.KernelIdeal.Pay Cert.MaskedMeans
open Idealize.ShloMosaic Idealize.ShloMosaic.TcCoe Idealize.SL.Sem Idealize.ShloMosaic.ValueIdx Idealize.ShloMosaic.StableHlo
open Idealize.ShloMosaic.Pipeline (Dat)

/-! ## Plane sums -/

section Planes

variable (X Y : A4.Idx → EReal) (B : A4.Idx → EReal)

/-- The total of `|X - Y|` over the plane of batch `p`, feature `q`. -/
def stP (p q : Fin 16) : EReal := ∑ r : Fin 256, ∑ w : Fin 256, absd (X (ix4 p q r w)) (Y (ix4 p q r w))
/-- The same against the mask values `B`. -/
def sfP (p q : Fin 16) : EReal := ∑ r : Fin 256, ∑ w : Fin 256, absd (X (ix4 p q r w)) (Y (ix4 p q r w)) * B (ix4 p q r w)
/-- The mask's count over the plane. -/
def cfP (p q : Fin 16) : EReal := ∑ r : Fin 256, ∑ w : Fin 256, B (ix4 p q r w)
/-- The total against the any-feature mask. -/
def saP (p q : Fin 16) : EReal :=
  ∑ r : Fin 256, ∑ w : Fin 256, absd (X (ix4 p q r w)) (Y (ix4 p q r w)) * anyOf (fun q' => B (ix4 p q' r w))
/-- The any-feature mask's count over the plane of batch `p`. -/
def caP (p : Fin 16) : EReal := ∑ r : Fin 256, ∑ w : Fin 256, anyOf (fun q' => B (ix4 p q' r w))

/-- A (batch, feature) family as a [16,16,1,1] array. -/
def arrF (g : Fin 16 → Fin 16 → EReal) : S16x16x1x1.Idx → EReal :=
  fun i => g ⟨(i 0).val, (i 0).isLt⟩ ⟨(i 1).val, (i 1).isLt⟩
/-- A batch family as a [16,1,1,1] array. -/
def arrS (g : Fin 16 → EReal) : S16x1x1x1.Idx → EReal := fun i => g ⟨(i 0).val, (i 0).isLt⟩

theorem arrF_apply (g : Fin 16 → Fin 16 → EReal) (p q : Fin 16) : arrF g (ix4 p q (0 : Fin 1) (0 : Fin 1)) = g p q := rfl
theorem arrS_apply (g : Fin 16 → EReal) (p : Fin 16) : arrS g (ix4 p (0 : Fin 1) (0 : Fin 1) (0 : Fin 1)) = g p := rfl

end Planes

variable (m : (ℓ : Loc nD τ sig) → Buf (Elt Ideal) ℓ) (ρ : Dev nD → PrngReg)

theorem hz : (![0, 0, 0, 0] : Fin 4 → Nat) = fun _ => 0 := funext fun a => by fin_cases a <;> rfl

theorem tlt (t : Fin cfg0.N) : t.val < 16 := by
  have h1 := t.isLt
  have h2 : cfg0.N = 16 := N_0
  omega

/-- Every window's block index at point `t` is (t, 0, 0, 0). -/
theorem idx_facts : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = t.val ∧ win0_2.index t 1 = 0 ∧ win0_2.index t 2 = 0 ∧ win0_2.index t 3 = 0)
    ∧ (win0_3.index t 0 = t.val ∧ win0_3.index t 1 = 0 ∧ win0_3.index t 2 = 0 ∧ win0_3.index t 3 = 0)
    ∧ (win0_4.index t 0 = t.val ∧ win0_4.index t 1 = 0 ∧ win0_4.index t 2 = 0 ∧ win0_4.index t 3 = 0)
    ∧ (win0_5.index t 0 = t.val ∧ win0_5.index t 1 = 0 ∧ win0_5.index t 2 = 0 ∧ win0_5.index t 3 = 0)
    ∧ (win0_6.index t 0 = t.val ∧ win0_6.index t 1 = 0 ∧ win0_6.index t 2 = 0 ∧ win0_6.index t 3 = 0)
    ∧ (win0_7.index t 0 = t.val ∧ win0_7.index t 1 = 0 ∧ win0_7.index t 2 = 0 ∧ win0_7.index t 3 = 0) :=
  (by decide +kernel : ∀ t : Fin grid0.N, _)

/-! ## The input blocks are batch slices -/

theorem iblk0_apply (c : Dev nD) (t : Fin cfg0.N) (q : Fin 16) (r w : Fin 256) :
    (iblk m c 0 t : Vec Ideal S1x16x256x256 .f32) (ix4 (0 : Fin 1) q r w)
      = (V m c main_arg0 : S16x16x256x256.Idx → EReal) (ix4 (⟨t.val, tlt t⟩ : Fin 16) q r w) := by
  obtain ⟨h0, h1, h2, h3⟩ := (idx_facts t).1
  unfold iblk
  rw [View.read_apply]
  show V m c main_arg0 _ = V m c main_arg0 _
  refine congrArg (V m c main_arg0) ?_
  funext a
  apply Fin.ext
  match a with
  | ⟨0, _⟩ => show win0_0.index t 0 * 1 + 1 * 0 = t.val; rw [h0]; omega
  | ⟨1, _⟩ => show win0_0.index t 1 * 16 + 1 * q.val = q.val; rw [h1]; omega
  | ⟨2, _⟩ => show win0_0.index t 2 * 256 + 1 * r.val = r.val; rw [h2]; omega
  | ⟨3, _⟩ => show win0_0.index t 3 * 256 + 1 * w.val = w.val; rw [h3]; omega

theorem iblk1_apply (c : Dev nD) (t : Fin cfg0.N) (q : Fin 16) (r w : Fin 256) :
    (iblk m c 1 t : Vec Ideal S1x16x256x256 .f32) (ix4 (0 : Fin 1) q r w)
      = (V m c main_arg1 : S16x16x256x256.Idx → EReal) (ix4 (⟨t.val, tlt t⟩ : Fin 16) q r w) := by
  obtain ⟨h0, h1, h2, h3⟩ := (idx_facts t).2.1
  unfold iblk
  rw [View.read_apply]
  show V m c main_arg1 _ = V m c main_arg1 _
  refine congrArg (V m c main_arg1) ?_
  funext a
  apply Fin.ext
  match a with
  | ⟨0, _⟩ => show win0_1.index t 0 * 1 + 1 * 0 = t.val; rw [h0]; omega
  | ⟨1, _⟩ => show win0_1.index t 1 * 16 + 1 * q.val = q.val; rw [h1]; omega
  | ⟨2, _⟩ => show win0_1.index t 2 * 256 + 1 * r.val = r.val; rw [h2]; omega
  | ⟨3, _⟩ => show win0_1.index t 3 * 256 + 1 * w.val = w.val; rw [h3]; omega

theorem iblk2_apply (c : Dev nD) (t : Fin cfg0.N) (q : Fin 16) (r w : Fin 256) :
    (iblk m c 2 t : Vec Ideal S1x16x256x256 .i32) (ix4 (0 : Fin 1) q r w)
      = (V m c main_v0 : S16x16x256x256.Idx → BitVec 32) (ix4 (⟨t.val, tlt t⟩ : Fin 16) q r w) := by
  obtain ⟨h0, h1, h2, h3⟩ := (idx_facts t).2.2.1
  unfold iblk
  rw [View.read_apply]
  show V m c main_v0 _ = V m c main_v0 _
  refine congrArg (V m c main_v0) ?_
  funext a
  apply Fin.ext
  match a with
  | ⟨0, _⟩ => show win0_2.index t 0 * 1 + 1 * 0 = t.val; rw [h0]; omega
  | ⟨1, _⟩ => show win0_2.index t 1 * 16 + 1 * q.val = q.val; rw [h1]; omega
  | ⟨2, _⟩ => show win0_2.index t 2 * 256 + 1 * r.val = r.val; rw [h2]; omega
  | ⟨3, _⟩ => show win0_2.index t 3 * 256 + 1 * w.val = w.val; rw [h3]; omega

/-! ## A block index of an output buffer -/

/-- An index of a [1, 16, 1, 1] buffer is (0, q, 0, 0). -/
theorem idxF_eq (y : S1x16x1x1.Idx) : y = ix4 (0 : Fin 1) (y 1 : Fin 16) (0 : Fin 1) (0 : Fin 1) := by
  funext a
  match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)
  | ⟨3, _⟩ => exact Fin.ext (by have h : (y 3).val < 1 := (y 3).isLt; show (y 3).val = 0; omega)

/-! ## Window 3: the totals of the absolute differences -/

/-- The stored value at an entry of the block is the plane total of the batch the block is a slice of. -/
theorem pt3 (x0 x1 : Vec Ideal S1x16x256x256 .f32) (X Y : A4.Idx → EReal) (tt : Fin 16)
    (h0 : ∀ (q : Fin 16) (r w : Fin 256), x0 (ix4 (0 : Fin 1) q r w) = X (ix4 tt q r w))
    (h1 : ∀ (q : Fin 16) (r w : Fin 256), x1 (ix4 (0 : Fin 1) q r w) = Y (ix4 tt q r w))
    (y : S1x16x1x1.Idx) (i : S16x16x1x1.Idx) (hi0 : (i 0).val = tt.val) (hi1 : (i 1).val = (y 1).val) :
    k0_pay6 (F := Ideal) x0 x1 y = arrF (stP X Y) i := by
  obtain ⟨q, rfl⟩ : ∃ q : Fin 16, y = ix4 (0 : Fin 1) q (0 : Fin 1) (0 : Fin 1) := ⟨y 1, idxF_eq y⟩
  have e : arrF (stP X Y) i = stP X Y tt q := by
    show stP X Y ⟨(i 0).val, (i 0).isLt⟩ ⟨(i 1).val, (i 1).isLt⟩ = _
    exact congrArg₂ (stP X Y) (Fin.ext hi0) (Fin.ext hi1)
  rw [e]
  refine (pay6_apply x0 x1 q).trans ?_
  unfold stP
  simp only [h0, h1]

/-- What point t writes back is block t of the array of plane totals. -/
theorem flushed3_eq (c : Dev nD) (t : Fin cfg0.N) :
    (dats (F := Ideal) m 0 c).flushed 3 t
      = ((cfg0.win 3).blk t).view.read (Elt Ideal) (arrF (stP (V m c main_arg0) (V m c main_arg1))) := by
  show (cfg0.win 3).cut (grid0.coords t) ((dats (F := Ideal) m 0 c).after 3 t) = _
  rw [after0_3]
  unfold out0_3
  rw [View.canon_unit_zero hz]
  simp only [View.ld_unit_zero (S := S1x16x256x256) hz]
  obtain ⟨h0, h1, h2, h3⟩ := (idx_facts t).2.2.2.1
  funext j
  refine pt3 (iblk m c 0 t) (iblk m c 1 t) (V m c main_arg0) (V m c main_arg1) ⟨t.val, tlt t⟩ (iblk0_apply m c t) (iblk1_apply m c t)
    j (((cfg0.win 3).blk t).view.emb j) ?_ ?_
  · show win0_3.index t 0 * 1 + 1 * (j 0).val = t.val
    have hj : (j 0).val < 1 := (j 0).isLt
    rw [h0]; omega
  · show win0_3.index t 1 * 16 + 1 * (j 1).val = (j 1).val
    rw [h1]; omega

/-- Every entry of the [16, 16, 1, 1] array lies in the block of the point of its batch. -/
theorem cover3 (i : S16x16x1x1.Idx) :
    ∃ t : Fin cfg0.N, (cfg0.win 3).flush t = true ∧ i ∈ ((cfg0.win 3).blk t).view.set := by
  have hN : cfg0.N = 16 := N_0
  have hi0 : (i 0).val < 16 := (i 0).isLt
  have hi1 : (i 1).val < 16 := (i 1).isLt
  have hi2 : (i 2).val < 1 := (i 2).isLt
  have hi3 : (i 3).val < 1 := (i 3).isLt
  have hlt : (i 0).val < cfg0.N := by omega
  obtain ⟨t, ht⟩ : ∃ t : Fin cfg0.N, t.val = (i 0).val := ⟨⟨(i 0).val, hlt⟩, rfl⟩
  obtain ⟨h0, h1, h2, h3⟩ := (idx_facts t).2.2.2.1
  refine ⟨t, flush0_3 t, ?_⟩
  show i ∈ ((View.whole main_v1_0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [h0]; constructor <;> omega
  | ⟨1, _⟩ =>
    show win0_3.index t 1 * 16 ≤ (i 1).val ∧ (i 1).val < win0_3.index t 1 * 16 + 16
    rw [h1]; constructor <;> omega
  | ⟨2, _⟩ =>
    show win0_3.index t 2 * 1 ≤ (i 2).val ∧ (i 2).val < win0_3.index t 2 * 1 + 1
    rw [h2]; constructor <;> omega
  | ⟨3, _⟩ =>
    show win0_3.index t 3 * 1 ≤ (i 3).val ∧ (i 3).val < win0_3.index t 3 * 1 + 1
    rw [h3]; constructor <;> omega

/-- After the run the array of window 3 holds the plane totals of the absolute differences. -/
theorem final3 (c : Dev nD) :
    (dats (F := Ideal) m 0 c).arrAt 3 cfg0.N = arrF (stP (V m c main_arg0) (V m c main_arg1)) :=
  (dats (F := Ideal) m 0 c).arrAt_eq_of_cover 3 _ (fun t _ => flushed3_eq m c t) cover3

/-! ## Window 4: the totals over the entries the feature's mask selects -/

/-- The stored value at an entry of the block is the masked plane total of the batch the block is a slice of. -/
theorem pt4 (x0 x1 : Vec Ideal S1x16x256x256 .f32) (x2 : Vec Ideal S1x16x256x256 .i32) (X Y : A4.Idx → EReal) (Wd : A4.Idx → BitVec 32) (tt : Fin 16)
    (h0 : ∀ (q : Fin 16) (r w : Fin 256), x0 (ix4 (0 : Fin 1) q r w) = X (ix4 tt q r w))
    (h1 : ∀ (q : Fin 16) (r w : Fin 256), x1 (ix4 (0 : Fin 1) q r w) = Y (ix4 tt q r w))
    (h2 : ∀ (q : Fin 16) (r w : Fin 256), x2 (ix4 (0 : Fin 1) q r w) = Wd (ix4 tt q r w))
    (y : S1x16x1x1.Idx) (i : S16x16x1x1.Idx) (hi0 : (i 0).val = tt.val) (hi1 : (i 1).val = (y 1).val) :
    k0_pay7 (F := Ideal) x0 x1 x2 y = arrF (sfP X Y (fun i => wordBit (Wd i))) i := by
  obtain ⟨q, rfl⟩ : ∃ q : Fin 16, y = ix4 (0 : Fin 1) q (0 : Fin 1) (0 : Fin 1) := ⟨y 1, idxF_eq y⟩
  have e : arrF (sfP X Y (fun i => wordBit (Wd i))) i = sfP X Y (fun i => wordBit (Wd i)) tt q := by
    show sfP X Y (fun i => wordBit (Wd i)) ⟨(i 0).val, (i 0).isLt⟩ ⟨(i 1).val, (i 1).isLt⟩ = _
    exact congrArg₂ (sfP X Y (fun i => wordBit (Wd i))) (Fin.ext hi0) (Fin.ext hi1)
  rw [e]
  refine (pay7_apply x0 x1 x2 q).trans ?_
  unfold sfP
  simp only [h0, h1, h2]

/-- What point t writes back is block t of the array of masked plane totals. -/
theorem flushed4_eq (c : Dev nD) (t : Fin cfg0.N) :
    (dats (F := Ideal) m 0 c).flushed 4 t
      = ((cfg0.win 4).blk t).view.read (Elt Ideal) (arrF (sfP (V m c main_arg0) (V m c main_arg1) (fun i => wordBit ((V m c main_v0 : S16x16x256x256.Idx → BitVec 32) i)))) := by
  show (cfg0.win 4).cut (grid0.coords t) ((dats (F := Ideal) m 0 c).after 4 t) = _
  rw [after0_4]
  unfold out0_4
  rw [View.canon_unit_zero hz]
  simp only [View.ld_unit_zero (S := S1x16x256x256) hz]
  obtain ⟨h0, h1, h2, h3⟩ := (idx_facts t).2.2.2.2.1
  funext j
  refine pt4 (iblk m c 0 t) (iblk m c 1 t) (iblk m c 2 t) (V m c main_arg0) (V m c main_arg1) (V m c main_v0) ⟨t.val, tlt t⟩
    (iblk0_apply m c t) (iblk1_apply m c t) (iblk2_apply m c t)
    j (((cfg0.win 4).blk t).view.emb j) ?_ ?_
  · show win0_4.index t 0 * 1 + 1 * (j 0).val = t.val
    have hj : (j 0).val < 1 := (j 0).isLt
    rw [h0]; omega
  · show win0_4.index t 1 * 16 + 1 * (j 1).val = (j 1).val
    rw [h1]; omega

/-- Every entry of the [16, 16, 1, 1] array of window 4 lies in the block of the point of its batch. -/
theorem cover4 (i : S16x16x1x1.Idx) :
    ∃ t : Fin cfg0.N, (cfg0.win 4).flush t = true ∧ i ∈ ((cfg0.win 4).blk t).view.set := by
  have hN : cfg0.N = 16 := N_0
  have hi0 : (i 0).val < 16 := (i 0).isLt
  have hi1 : (i 1).val < 16 := (i 1).isLt
  have hi2 : (i 2).val < 1 := (i 2).isLt
  have hi3 : (i 3).val < 1 := (i 3).isLt
  have hlt : (i 0).val < cfg0.N := by omega
  obtain ⟨t, ht⟩ : ∃ t : Fin cfg0.N, t.val = (i 0).val := ⟨⟨(i 0).val, hlt⟩, rfl⟩
  obtain ⟨h0, h1, h2, h3⟩ := (idx_facts t).2.2.2.2.1
  refine ⟨t, flush0_4 t, ?_⟩
  show i ∈ ((View.whole main_v1_1).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [h0]; constructor <;> omega
  | ⟨1, _⟩ =>
    show win0_4.index t 1 * 16 ≤ (i 1).val ∧ (i 1).val < win0_4.index t 1 * 16 + 16
    rw [h1]; constructor <;> omega
  | ⟨2, _⟩ =>
    show win0_4.index t 2 * 1 ≤ (i 2).val ∧ (i 2).val < win0_4.index t 2 * 1 + 1
    rw [h2]; constructor <;> omega
  | ⟨3, _⟩ =>
    show win0_4.index t 3 * 1 ≤ (i 3).val ∧ (i 3).val < win0_4.index t 3 * 1 + 1
    rw [h3]; constructor <;> omega

/-- After the run the array of window 4 holds the masked plane totals. -/
theorem final4 (c : Dev nD) :
    (dats (F := Ideal) m 0 c).arrAt 4 cfg0.N = arrF (sfP (V m c main_arg0) (V m c main_arg1) (fun i => wordBit ((V m c main_v0 : S16x16x256x256.Idx → BitVec 32) i))) :=
  (dats (F := Ideal) m 0 c).arrAt_eq_of_cover 4 _ (fun t _ => flushed4_eq m c t) cover4

/-! ## Window 5: the counts of the entries the feature's mask selects -/

/-- The stored value at an entry of the block is the mask's count over the plane of the batch the block is a slice of. -/
theorem pt5 (x2 : Vec Ideal S1x16x256x256 .i32) (Wd : A4.Idx → BitVec 32) (tt : Fin 16)
    (h2 : ∀ (q : Fin 16) (r w : Fin 256), x2 (ix4 (0 : Fin 1) q r w) = Wd (ix4 tt q r w))
    (y : S1x16x1x1.Idx) (i : S16x16x1x1.Idx) (hi0 : (i 0).val = tt.val) (hi1 : (i 1).val = (y 1).val) :
    k0_pay8 (F := Ideal) x2 y = arrF (cfP (fun i => wordBit (Wd i))) i := by
  obtain ⟨q, rfl⟩ : ∃ q : Fin 16, y = ix4 (0 : Fin 1) q (0 : Fin 1) (0 : Fin 1) := ⟨y 1, idxF_eq y⟩
  have e : arrF (cfP (fun i => wordBit (Wd i))) i = cfP (fun i => wordBit (Wd i)) tt q := by
    show cfP (fun i => wordBit (Wd i)) ⟨(i 0).val, (i 0).isLt⟩ ⟨(i 1).val, (i 1).isLt⟩ = _
    exact congrArg₂ (cfP (fun i => wordBit (Wd i))) (Fin.ext hi0) (Fin.ext hi1)
  rw [e]
  refine (pay8_apply x2 q).trans ?_
  unfold cfP
  simp only [h2]

/-- What point t writes back is block t of the array of counts. -/
theorem flushed5_eq (c : Dev nD) (t : Fin cfg0.N) :
    (dats (F := Ideal) m 0 c).flushed 5 t
      = ((cfg0.win 5).blk t).view.read (Elt Ideal) (arrF (cfP (fun i => wordBit ((V m c main_v0 : S16x16x256x256.Idx → BitVec 32) i)))) := by
  show (cfg0.win 5).cut (grid0.coords t) ((dats (F := Ideal) m 0 c).after 5 t) = _
  rw [after0_5]
  unfold out0_5
  rw [View.canon_unit_zero hz]
  simp only [View.ld_unit_zero (S := S1x16x256x256) hz]
  obtain ⟨h0, h1, h2, h3⟩ := (idx_facts t).2.2.2.2.2.1
  funext j
  rw [View.read_apply, cast_eq]
  refine pt5 (iblk m c 2 t) (V m c main_v0) ⟨t.val, tlt t⟩ (iblk2_apply m c t)
    ((win0 5).xinj (grid0.coords t) j) _ ?_ ?_
  · show win0_5.index t 0 * 1 + 1 * (j 0).val = t.val
    have hj : (j 0).val < 1 := (j 0).isLt
    rw [h0]; omega
  · show win0_5.index t 1 * 16 + 1 * (j 1).val = (j 1).val
    rw [h1]; omega

/-- Every entry of the [16, 16, 1, 1] array of window 5 lies in the block of the point of its batch. -/
theorem cover5 (i : S16x16x1x1.Idx) :
    ∃ t : Fin cfg0.N, (cfg0.win 5).flush t = true ∧ i ∈ ((cfg0.win 5).blk t).view.set := by
  have hN : cfg0.N = 16 := N_0
  have hi0 : (i 0).val < 16 := (i 0).isLt
  have hi1 : (i 1).val < 16 := (i 1).isLt
  have hi2 : (i 2).val < 1 := (i 2).isLt
  have hi3 : (i 3).val < 1 := (i 3).isLt
  have hlt : (i 0).val < cfg0.N := by omega
  obtain ⟨t, ht⟩ : ∃ t : Fin cfg0.N, t.val = (i 0).val := ⟨⟨(i 0).val, hlt⟩, rfl⟩
  obtain ⟨h0, h1, h2, h3⟩ := (idx_facts t).2.2.2.2.2.1
  refine ⟨t, flush0_5 t, ?_⟩
  show i ∈ ((View.whole main_v1_2).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [h0]; constructor <;> omega
  | ⟨1, _⟩ =>
    show win0_5.index t 1 * 16 ≤ (i 1).val ∧ (i 1).val < win0_5.index t 1 * 16 + 16
    rw [h1]; constructor <;> omega
  | ⟨2, _⟩ =>
    show win0_5.index t 2 * 1 ≤ (i 2).val ∧ (i 2).val < win0_5.index t 2 * 1 + 1
    rw [h2]; constructor <;> omega
  | ⟨3, _⟩ =>
    show win0_5.index t 3 * 1 ≤ (i 3).val ∧ (i 3).val < win0_5.index t 3 * 1 + 1
    rw [h3]; constructor <;> omega

/-- After the run the array of window 5 holds the counts. -/
theorem final5 (c : Dev nD) :
    (dats (F := Ideal) m 0 c).arrAt 5 cfg0.N = arrF (cfP (fun i => wordBit ((V m c main_v0 : S16x16x256x256.Idx → BitVec 32) i))) :=
  (dats (F := Ideal) m 0 c).arrAt_eq_of_cover 5 (arrF (cfP (fun i => wordBit ((V m c main_v0 : S16x16x256x256.Idx → BitVec 32) i)))) (fun t _ => flushed5_eq m c t) cover5

/-! ## Window 6: the totals over the entries some feature's mask selects -/

/-- The stored value at an entry of the block is the plane total against the any-feature mask of the batch the block is a slice of. -/
theorem pt6 (x0 x1 : Vec Ideal S1x16x256x256 .f32) (x2 : Vec Ideal S1x16x256x256 .i32) (X Y : A4.Idx → EReal) (Wd : A4.Idx → BitVec 32) (tt : Fin 16)
    (h0 : ∀ (q : Fin 16) (r w : Fin 256), x0 (ix4 (0 : Fin 1) q r w) = X (ix4 tt q r w))
    (h1 : ∀ (q : Fin 16) (r w : Fin 256), x1 (ix4 (0 : Fin 1) q r w) = Y (ix4 tt q r w))
    (h2 : ∀ (q : Fin 16) (r w : Fin 256), x2 (ix4 (0 : Fin 1) q r w) = Wd (ix4 tt q r w))
    (y : S1x16x1x1.Idx) (i : S16x16x1x1.Idx) (hi0 : (i 0).val = tt.val) (hi1 : (i 1).val = (y 1).val) :
    k0_pay2 (F := Ideal) (k0_pay4 (F := Ideal) x0 x1) (k0_pay5 (F := Ideal) x2) y = arrF (saP X Y (fun i => wordBit (Wd i))) i := by
  obtain ⟨q, rfl⟩ : ∃ q : Fin 16, y = ix4 (0 : Fin 1) q (0 : Fin 1) (0 : Fin 1) := ⟨y 1, idxF_eq y⟩
  have e : arrF (saP X Y (fun i => wordBit (Wd i))) i = saP X Y (fun i => wordBit (Wd i)) tt q := by
    show saP X Y (fun i => wordBit (Wd i)) ⟨(i 0).val, (i 0).isLt⟩ ⟨(i 1).val, (i 1).isLt⟩ = _
    exact congrArg₂ (saP X Y (fun i => wordBit (Wd i))) (Fin.ext hi0) (Fin.ext hi1)
  rw [e]
  refine (pay2_apply x0 x1 x2 q).trans ?_
  unfold saP
  simp only [h0, h1, h2]

/-- What point t writes back is block t of the array of totals against the any-feature mask. -/
theorem flushed6_eq (c : Dev nD) (t : Fin cfg0.N) :
    (dats (F := Ideal) m 0 c).flushed 6 t
      = ((cfg0.win 6).blk t).view.read (Elt Ideal) (arrF (saP (V m c main_arg0) (V m c main_arg1) (fun i => wordBit ((V m c main_v0 : S16x16x256x256.Idx → BitVec 32) i)))) := by
  show (cfg0.win 6).cut (grid0.coords t) ((dats (F := Ideal) m 0 c).after 6 t) = _
  rw [after0_6]
  unfold out0_6
  rw [View.canon_unit_zero hz]
  simp only [View.ld_unit_zero (S := S1x16x256x256) hz]
  obtain ⟨h0, h1, h2, h3⟩ := (idx_facts t).2.2.2.2.2.2.1
  funext j
  rw [View.read_apply, cast_eq]
  refine pt6 (iblk m c 0 t) (iblk m c 1 t) (iblk m c 2 t) (V m c main_arg0) (V m c main_arg1) (V m c main_v0) ⟨t.val, tlt t⟩
    (iblk0_apply m c t) (iblk1_apply m c t) (iblk2_apply m c t)
    ((win0 6).xinj (grid0.coords t) j) _ ?_ ?_
  · show win0_6.index t 0 * 1 + 1 * (j 0).val = t.val
    have hj : (j 0).val < 1 := (j 0).isLt
    rw [h0]; omega
  · show win0_6.index t 1 * 16 + 1 * (j 1).val = (j 1).val
    rw [h1]; omega

/-- Every entry of the [16, 16, 1, 1] array of window 6 lies in the block of the point of its batch. -/
theorem cover6 (i : S16x16x1x1.Idx) :
    ∃ t : Fin cfg0.N, (cfg0.win 6).flush t = true ∧ i ∈ ((cfg0.win 6).blk t).view.set := by
  have hN : cfg0.N = 16 := N_0
  have hi0 : (i 0).val < 16 := (i 0).isLt
  have hi1 : (i 1).val < 16 := (i 1).isLt
  have hi2 : (i 2).val < 1 := (i 2).isLt
  have hi3 : (i 3).val < 1 := (i 3).isLt
  have hlt : (i 0).val < cfg0.N := by omega
  obtain ⟨t, ht⟩ : ∃ t : Fin cfg0.N, t.val = (i 0).val := ⟨⟨(i 0).val, hlt⟩, rfl⟩
  obtain ⟨h0, h1, h2, h3⟩ := (idx_facts t).2.2.2.2.2.2.1
  refine ⟨t, flush0_6 t, ?_⟩
  show i ∈ ((View.whole main_v1_3).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [h0]; constructor <;> omega
  | ⟨1, _⟩ =>
    show win0_6.index t 1 * 16 ≤ (i 1).val ∧ (i 1).val < win0_6.index t 1 * 16 + 16
    rw [h1]; constructor <;> omega
  | ⟨2, _⟩ =>
    show win0_6.index t 2 * 1 ≤ (i 2).val ∧ (i 2).val < win0_6.index t 2 * 1 + 1
    rw [h2]; constructor <;> omega
  | ⟨3, _⟩ =>
    show win0_6.index t 3 * 1 ≤ (i 3).val ∧ (i 3).val < win0_6.index t 3 * 1 + 1
    rw [h3]; constructor <;> omega

/-- After the run the array of window 6 holds the totals against the any-feature mask. -/
theorem final6 (c : Dev nD) :
    (dats (F := Ideal) m 0 c).arrAt 6 cfg0.N = arrF (saP (V m c main_arg0) (V m c main_arg1) (fun i => wordBit ((V m c main_v0 : S16x16x256x256.Idx → BitVec 32) i))) :=
  (dats (F := Ideal) m 0 c).arrAt_eq_of_cover 6 (arrF (saP (V m c main_arg0) (V m c main_arg1) (fun i => wordBit ((V m c main_v0 : S16x16x256x256.Idx → BitVec 32) i)))) (fun t _ => flushed6_eq m c t) cover6

/-! ## Window 7: the counts of the entries some feature's mask selects -/

/-- The one index of a [1, 1, 1, 1] buffer. -/
theorem idxS_eq (y : S1x1x1x1.Idx) : y = ix4 (0 : Fin 1) (0 : Fin 1) (0 : Fin 1) (0 : Fin 1) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => exact Fin.ext (by have h : (y 2).val < 1 := (y 2).isLt; show (y 2).val = 0; omega)
  | ⟨3, _⟩ => exact Fin.ext (by have h : (y 3).val < 1 := (y 3).isLt; show (y 3).val = 0; omega)

/-- The stored value of the block is the any-feature mask's count over the plane of the batch the block is a slice of. -/
theorem pt7 (x2 : Vec Ideal S1x16x256x256 .i32) (Wd : A4.Idx → BitVec 32) (tt : Fin 16)
    (h2 : ∀ (q : Fin 16) (r w : Fin 256), x2 (ix4 (0 : Fin 1) q r w) = Wd (ix4 tt q r w))
    (y : S1x1x1x1.Idx) (i : S16x1x1x1.Idx) (hi0 : (i 0).val = tt.val) :
    k0_pay3 (F := Ideal) (k0_pay5 (F := Ideal) x2) y = arrS (caP (fun i => wordBit (Wd i))) i := by
  have e : arrS (caP (fun i => wordBit (Wd i))) i = caP (fun i => wordBit (Wd i)) tt := by
    show caP (fun i => wordBit (Wd i)) ⟨(i 0).val, (i 0).isLt⟩ = _
    exact congrArg (caP (fun i => wordBit (Wd i))) (Fin.ext hi0)
  rw [e, idxS_eq y]
  refine (pay3_apply x2).trans ?_
  unfold caP
  simp only [h2]

/-- What point t writes back is block t of the array of any-feature counts. -/
theorem flushed7_eq (c : Dev nD) (t : Fin cfg0.N) :
    (dats (F := Ideal) m 0 c).flushed 7 t
      = ((cfg0.win 7).blk t).view.read (Elt Ideal) (arrS (caP (fun i => wordBit ((V m c main_v0 : S16x16x256x256.Idx → BitVec 32) i)))) := by
  show (cfg0.win 7).cut (grid0.coords t) ((dats (F := Ideal) m 0 c).after 7 t) = _
  rw [after0_7]
  unfold out0_7
  rw [View.canon_unit_zero hz]
  simp only [View.ld_unit_zero (S := S1x16x256x256) hz]
  obtain ⟨h0, h1, h2, h3⟩ := (idx_facts t).2.2.2.2.2.2.2
  funext j
  rw [View.read_apply, cast_eq]
  refine pt7 (iblk m c 2 t) (V m c main_v0) ⟨t.val, tlt t⟩ (iblk2_apply m c t)
    ((win0 7).xinj (grid0.coords t) j) _ ?_
  · show win0_7.index t 0 * 1 + 1 * (j 0).val = t.val
    have hj : (j 0).val < 1 := (j 0).isLt
    rw [h0]; omega

/-- Every entry of the [16, 1, 1, 1] array lies in the block of the point of its batch. -/
theorem cover7 (i : S16x1x1x1.Idx) :
    ∃ t : Fin cfg0.N, (cfg0.win 7).flush t = true ∧ i ∈ ((cfg0.win 7).blk t).view.set := by
  have hN : cfg0.N = 16 := N_0
  have hi0 : (i 0).val < 16 := (i 0).isLt
  have hi1 : (i 1).val < 1 := (i 1).isLt
  have hi2 : (i 2).val < 1 := (i 2).isLt
  have hi3 : (i 3).val < 1 := (i 3).isLt
  have hlt : (i 0).val < cfg0.N := by omega
  obtain ⟨t, ht⟩ : ∃ t : Fin cfg0.N, t.val = (i 0).val := ⟨⟨(i 0).val, hlt⟩, rfl⟩
  obtain ⟨h0, h1, h2, h3⟩ := (idx_facts t).2.2.2.2.2.2.2
  refine ⟨t, flush0_7 t, ?_⟩
  show i ∈ ((View.whole main_v1_4).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    rw [h0]; constructor <;> omega
  | ⟨1, _⟩ =>
    show win0_7.index t 1 * 1 ≤ (i 1).val ∧ (i 1).val < win0_7.index t 1 * 1 + 1
    rw [h1]; constructor <;> omega
  | ⟨2, _⟩ =>
    show win0_7.index t 2 * 1 ≤ (i 2).val ∧ (i 2).val < win0_7.index t 2 * 1 + 1
    rw [h2]; constructor <;> omega
  | ⟨3, _⟩ =>
    show win0_7.index t 3 * 1 ≤ (i 3).val ∧ (i 3).val < win0_7.index t 3 * 1 + 1
    rw [h3]; constructor <;> omega

/-- After the run the array of window 7 holds the any-feature counts. -/
theorem final7 (c : Dev nD) :
    (dats (F := Ideal) m 0 c).arrAt 7 cfg0.N = arrS (caP (fun i => wordBit ((V m c main_v0 : S16x16x256x256.Idx → BitVec 32) i))) :=
  (dats (F := Ideal) m 0 c).arrAt_eq_of_cover 7 (arrS (caP (fun i => wordBit ((V m c main_v0 : S16x16x256x256.Idx → BitVec 32) i)))) (fun t _ => flushed7_eq m c t) cover7

/-! ## The mask words the region finds -/

/-- The one host line before the region widens the mask bits to words. -/
theorem V_main_v0 (c : Dev nD) :
    (V m c main_v0 : S16x16x256x256.Idx → BitVec 32) = extui 32 (m ((c : Thread nD τ).loc main_arg2)) natLt_1_32 := by
  show StableHlo.after hostOps0 (fun b => m (c, b)) (Proc.devRef .tc main_v0) = _
  after_results

end Cert.KernelIdeal.Arr

end
-- ==== Proof.KerTail.lean ====
/- The host lines after the region, as one function of the five arrays the region wrote. Reading the lines in order:
   each [16,16,1,1] array is viewed as a [16,16] matrix (batch, feature) and the [16,1,1,1] array as a vector over the batch;
   the background sums are the totals minus the masked sums and the background counts are 65536 minus the masked counts,
   entry by entry; every matrix is summed over the batch into a vector over the features, and the vector into a scalar;
   each (sum, count) pair becomes the quotient of the sum by the count raised to at least one where the count is positive
   and zero elsewhere — for the any-feature pair the count is one scalar, compared and raised before it is spread over the
   features —; the result is the third of the sum of the three means over the features. -/
import proofs.«110176_j44032004718833_2_alg».proof.Proof.Gen.KernelIdeal.Launch
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- A [16,16,1,1] array as a (batch, feature) matrix. -/
def asMatrix (a : FVec F S16x16x1x1 .f32) : FVec F S16x16 .f32 := shapeCast S16x16 a shapeCasts_S16x16x1x1_S16x16
/-- A [16,1,1,1] array as a vector over the batch. -/
def asVector (a : FVec F S16x1x1x1 .f32) : FVec F S16 .f32 := shapeCast S16 a shapeCasts_S16x1x1x1_S16
/-- The sum over the batch of a (batch, feature) matrix, from zero. -/
def colSum (x : FVec F S16x16 .f32) : FVec F S16 .f32 :=
  Host.reduceAdd x (constant S_ .f32 0x00000000#32) reducesTo_S16x16_S16_d0 h_S_
/-- The sum of a vector, from zero. -/
def total (x : FVec F S16 .f32) : FVec F S_ .f32 :=
  Host.reduceAdd x (constant S_ .f32 0x00000000#32) reducesTo_S16_S_d0 h_S_
/-- The quotient of a sum by its count, feature by feature, zero where the count is not positive. -/
def ratioV (s c : FVec F S16 .f32) : FVec F S16 .f32 :=
  select (cmpf .ogt c (broadcastInDim S16 ![] bcast_S_S16 (constant S_ .f32 0x00000000#32)))
    (Host.divf s (maximumf c (broadcastInDim S16 ![] bcast_S_S16 (constant S_ .f32 0x3F800000#32))))
    (broadcastInDim S16 ![] bcast_S_S16 (id (constant S_ .f32 0x00000000#32)))
/-- The same against ONE count for every feature. -/
def ratioS (s : FVec F S16 .f32) (c : FVec F S_ .f32) : FVec F S16 .f32 :=
  select (broadcastInDim S16 ![] bcast_S_S16 (cmpf .ogt c (constant S_ .f32 0x00000000#32)))
    (Host.divf s (broadcastInDim S16 ![] bcast_S_S16 (maximumf c (constant S_ .f32 0x3F800000#32))))
    (broadcastInDim S16 ![] bcast_S_S16 (id (constant S_ .f32 0x00000000#32)))
/-- The mean of a vector over the sixteen features. -/
def meanV (a : FVec F S16 .f32) : FVec F S_ .f32 := Host.divf (total a) (constant S_ .f32 0x41800000#32)

/-- The lines' result from the five arrays: totals `a0`, masked sums `a1`, masked counts `a2`, any-feature sums `a3`,
    any-feature counts `a4`. -/
def tailTerm (a0 a1 a2 a3 : FVec F S16x16x1x1 .f32) (a4 : FVec F S16x1x1x1 .f32) : FVec F S_ .f32 :=
  Host.divf
    (addf
      (addf (meanV (ratioV (colSum (asMatrix a1)) (colSum (asMatrix a2))))
        (meanV (ratioS (colSum (asMatrix a3)) (total (asVector a4)))))
      (meanV (ratioV (colSum (subf (asMatrix a0) (asMatrix a1)))
        (colSum (subf (broadcastInDim S16x16 ![] bcast_S_S16x16 (constant S_ .f32 0x47800000#32)) (asMatrix a2))))))
    (constant S_ .f32 0x40400000#32)

set_option maxRecDepth 8192 in
set_option maxHeartbeats 4000000 in
/-- After the lines, from any contents `W`, the result buffer holds `tailTerm` of the five arrays as `W` has them. -/
theorem after_v41 (W : Valuation τ sig (Elt F)) :
    StableHlo.after (List.flatten [hostOps1, hostOps1_1, hostOps1_2, hostOps1_3, hostOps1_4, hostOps1_5, hostOps1_6]) W (Proc.devRef .tc main_v41)
      = tailTerm (W (Proc.devRef .tc main_v1_0)) (W (Proc.devRef .tc main_v1_1)) (W (Proc.devRef .tc main_v1_2))
          (W (Proc.devRef .tc main_v1_3)) (W (Proc.devRef .tc main_v1_4)) := by
  simp only [hostOps1, hostOps1_1, hostOps1_2, hostOps1_3, hostOps1_4, hostOps1_5, hostOps1_6, List.flatten_cons, List.flatten_nil,
    List.append_nil, List.cons_append, List.nil_append]
  after_results_simp <;> rfl

end Cert.KernelIdeal.Tail

end
-- ==== Proof.Laws.lean ====
import proofs.«110176_j44032004718833_2_alg».proof.Proof.Spec

/-!
# Sums of real numbers inside the extended reals

On the extended reals a difference of sums is not in general the sum of the differences (an infinite term absorbs).
For families of REAL numbers it is: the sums are real, and the laws of the reals apply. Two consequences used for the
complement of a mask over a 256 x 256 plane: the total of `d` less the masked total of `d` is the total of `d` against
the complement, and 65536 less the number of masked entries is the number of unmasked ones.
-/

noncomputable section

namespace Cert.MaskedMeans

open Idealize.ShloMosaic

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `|x - y|` of two reals is the real `max (x - y) (-(x - y))`. -/
theorem absd_coe (x y : ℝ) : absd (x : EReal) (y : EReal) = ((max (x - y) (-(x - y)) : ℝ) : EReal) := by
  unfold absd
  rw [← EReal.coe_sub, ← EReal.coe_neg]
  exact (EReal.coe_strictMono.monotone.map_max).symm

/-- Over a plane of reals: the total less the masked total is the total against the complement of the mask. -/
theorem plane_sub (d u : Fin 256 → Fin 256 → ℝ) :
    (∑ r : Fin 256, ∑ w : Fin 256, (d r w : EReal)) - (∑ r : Fin 256, ∑ w : Fin 256, (d r w : EReal) * (u r w : EReal))
      = ∑ r : Fin 256, ∑ w : Fin 256, (d r w : EReal) * (1 - (u r w : EReal)) := by
  simp only [← EReal.coe_one, ← EReal.coe_mul, ← EReal.coe_sub, ← coe_sum]
  refine congrArg _ ?_
  rw [← Finset.sum_sub_distrib]
  refine Finset.sum_congr rfl fun r _ => ?_
  rw [← Finset.sum_sub_distrib]
  refine Finset.sum_congr rfl fun w _ => ?_
  ring

/-- Over a plane of reals: 65536 less the masked count is the count of the complement. -/
theorem plane_count (u : Fin 256 → Fin 256 → ℝ) :
    ((65536 : ℝ) : EReal) - (∑ r : Fin 256, ∑ w : Fin 256, (u r w : EReal))
      = ∑ r : Fin 256, ∑ w : Fin 256, (1 - (u r w : EReal)) := by
  simp only [← EReal.coe_one, ← EReal.coe_sub, ← coe_sum]
  refine congrArg _ ?_
  simp only [Finset.sum_sub_distrib, Finset.sum_const, Finset.card_univ, Fintype.card_fin, smul_eq_mul, nsmul_eq_mul]
  norm_num

end Cert.MaskedMeans

end
-- ==== Proof.KerSide.lean ====
/- The host lines after the region, read at the extended reals, against the specification. The lines sum each
   (batch, feature) matrix of plane sums over the batch, so the masked and the any-feature sums and counts are the
   specification's triple sums term by term. The background sums and counts are where the reals are needed: the lines
   subtract the masked plane sum from the plane total (and the masked count from 65536 = 256 * 256), and a difference of
   sums is the sum of the differences only for real numbers — which the entries of the float arrays are, by hypothesis,
   and the mask values always. The any-feature count is one scalar for every feature; comparing and raising it before
   it is spread over the features is comparing and raising it feature by feature. -/
import proofs.«110176_j44032004718833_2_alg».proof.Proof.KerTail
import proofs.«110176_j44032004718833_2_alg».proof.Proof.Spec
import proofs.«110176_j44032004718833_2_alg».proof.Proof.Laws
import Idealize.ShloMosaic.Lib.Pipeline.Value
import Idealize.ShloMosaic.Lib.ValueIdx
import Idealize.ShloMosaic.PureOps.Ideal.Laws

noncomputable section

namespace Cert.KernelIdeal.Side

open Cert.KernelIdeal Cert.KernelIdeal.Gen Cert.KernelIdeal.Tail Cert.MaskedMeans
open Idealize.ShloMosaic Idealize.ShloMosaic.ValueIdx

/-- The literal 65536.0 is the real 65536. -/
theorem lit65536 : Ideal.ofBits .f32 0x47800000#32 = ((65536 : ℝ) : EReal) := by
  simp [Ideal.ofBits, Ideal.ieee]
  exact_mod_cast (by norm_num : (8388608 : ℝ) * ((2 : ℝ) ^ 7)⁻¹ = 65536)

instance : Subsingleton S_.Idx := ⟨fun a b => funext fun d => d.elim0⟩

/-- The sum over the batch of a matrix, at feature `q`. -/
theorem colSum_apply (x : S16x16.Idx → EReal) (q : Fin 16) : colSum (F := Ideal) x (ix1 q) = ∑ p : Fin 16, x (ix2 p q) := by
  unfold colSum Host.reduceAdd
  refine (Ideal.hostReduceAdd_single reducesTo_S16x16_S16_d0 (by decide : S16x16.Reduces [0] S16) x _ (ix1 q)).trans ?_
  rw [show (constant (F := Ideal) S_ .f32 0x00000000#32 (Shape.Idx.first h_S_) : EReal) = Ideal.ofBits .f32 0x00000000#32 from rfl,
    Ideal.ofBits_zero_f32, zero_add]
  refine Finset.sum_congr rfl fun k _ => congrArg x (funext fun a => ?_)
  match a with
  | ⟨0, _⟩ => rfl
  | ⟨1, _⟩ => rfl

/-- A sum over every index of a vector is the sum over its one coordinate. -/
theorem sum_idx1 (x : S16.Idx → EReal) : ∑ i : S16.Idx, x i = ∑ p : Fin 16, x (ix1 p) :=
  (Fintype.sum_equiv (⟨ix1, fun i => ⟨(i 0).val, (i 0).isLt⟩, fun p => rfl, fun i => (eq_ix1 i).symm⟩ : Fin 16 ≃ S16.Idx)
    (fun p => x (ix1 p)) x (fun p => rfl)).symm

/-- The sum of a vector, at its one index. -/
theorem total_apply (x : S16.Idx → EReal) (j : S_.Idx) : total (F := Ideal) x j = ∑ p : Fin 16, x (ix1 p) := by
  unfold total Host.reduceAdd
  refine (Ideal.hostReduceAdd_total reducesTo_S16_S_d0 (fun b => b.elim0) x _ j).trans ?_
  rw [show (constant (F := Ideal) S_ .f32 0x00000000#32 (Shape.Idx.first h_S_) : EReal) = Ideal.ofBits .f32 0x00000000#32 from rfl,
    Ideal.ofBits_zero_f32, zero_add]
  exact sum_idx1 x

theorem asMatrix_apply (a : S16x16x1x1.Idx → EReal) (p q : Fin 16) :
    asMatrix (F := Ideal) a (ix2 p q) = a (ix4 p q (0 : Fin 1) (0 : Fin 1)) := by
  unfold asMatrix
  refine shapeCast_apply _ _ (ix2 p q) (ix4 p q (0 : Fin 1) (0 : Fin 1)) ?_
  rw [Shape.rowMajor_val_four, Shape.rowMajor_val_two]
  show ((p.val * 16 + q.val) * 1 + 0) * 1 + 0 = p.val * 16 + q.val
  omega

theorem asVector_apply (a : S16x1x1x1.Idx → EReal) (p : Fin 16) :
    asVector (F := Ideal) a (ix1 p) = a (ix4 p (0 : Fin 1) (0 : Fin 1) (0 : Fin 1)) := by
  unfold asVector
  refine shapeCast_apply _ _ (ix1 p) (ix4 p (0 : Fin 1) (0 : Fin 1) (0 : Fin 1)) ?_
  rw [Shape.rowMajor_val_four, Shape.rowMajor_val_one]
  show ((p.val * 1 + 0) * 1 + 0) * 1 + 0 = p.val
  omega

/-- A scalar spread over the features, at a feature. -/
theorem spread_apply {α : Type} (x : S_.Idx → α) (i : S16.Idx) : broadcastInDim S16 ![] bcast_S_S16 x i = x ix0 := by
  unfold broadcastInDim
  exact congrArg x (Subsingleton.elim _ _)

/-- Comparing and raising ONE count before spreading it over the features is doing so feature by feature. -/
theorem ratioS_eq (s : S16.Idx → EReal) (c : S_.Idx → EReal) :
    ratioS (F := Ideal) s c = ratioV (F := Ideal) s (fun _ => c ix0) := by
  funext i
  unfold ratioS ratioV
  simp only [select, cmpf, maximumf, Host.divf]
  repeat rw [spread_apply]
  rfl

/-- The lines' spelling of the mean-of-selected is the specification's. -/
theorem ratioV_eq (s c : S16.Idx → EReal) : ratioV (F := Ideal) s c = ratio bcast_S_S16 s c := rfl

section Value

variable (X Y : A4.Idx → EReal) (M : A4.Idx → BitVec 1)
variable (a0 a1 a2 a3 : S16x16x1x1.Idx → EReal) (a4 : S16x1x1x1.Idx → EReal)

theorem featS (h1 : ∀ p q : Fin 16, a1 (ix4 p q (0 : Fin 1) (0 : Fin 1))
      = ∑ r : Fin 256, ∑ w : Fin 256, absd (X (ix4 p q r w)) (Y (ix4 p q r w)) * bit (M (ix4 p q r w))) :
    colSum (F := Ideal) (asMatrix (F := Ideal) a1) = vec (sumFeat X Y M) := by
  refine vec_ext fun q => ?_
  rw [colSum_apply, vec_ix1]
  unfold sumFeat
  exact Finset.sum_congr rfl fun p _ => (asMatrix_apply a1 p q).trans (h1 p q)

theorem featC (h2 : ∀ p q : Fin 16, a2 (ix4 p q (0 : Fin 1) (0 : Fin 1))
      = ∑ r : Fin 256, ∑ w : Fin 256, bit (M (ix4 p q r w))) :
    colSum (F := Ideal) (asMatrix (F := Ideal) a2) = vec (cntFeat M) := by
  refine vec_ext fun q => ?_
  rw [colSum_apply, vec_ix1]
  unfold cntFeat
  exact Finset.sum_congr rfl fun p _ => (asMatrix_apply a2 p q).trans (h2 p q)

theorem allS (h3 : ∀ p q : Fin 16, a3 (ix4 p q (0 : Fin 1) (0 : Fin 1))
      = ∑ r : Fin 256, ∑ w : Fin 256, absd (X (ix4 p q r w)) (Y (ix4 p q r w)) * anyOf (fun q' => bit (M (ix4 p q' r w)))) :
    colSum (F := Ideal) (asMatrix (F := Ideal) a3) = vec (sumAll X Y M) := by
  refine vec_ext fun q => ?_
  rw [colSum_apply, vec_ix1]
  unfold sumAll
  exact Finset.sum_congr rfl fun p _ => (asMatrix_apply a3 p q).trans (h3 p q)

theorem allC (h4 : ∀ p : Fin 16, a4 (ix4 p (0 : Fin 1) (0 : Fin 1) (0 : Fin 1))
      = ∑ r : Fin 256, ∑ w : Fin 256, anyOf (fun q' => bit (M (ix4 p q' r w)))) :
    total (F := Ideal) (asVector (F := Ideal) a4) ix0 = cntAll M := by
  rw [total_apply]
  unfold cntAll
  exact Finset.sum_congr rfl fun p _ => (asVector_apply a4 p).trans (h4 p)

theorem bgS (hX : ∀ i, ∃ r : ℝ, X i = (r : EReal)) (hY : ∀ i, ∃ r : ℝ, Y i = (r : EReal))
    (h0 : ∀ p q : Fin 16, a0 (ix4 p q (0 : Fin 1) (0 : Fin 1))
      = ∑ r : Fin 256, ∑ w : Fin 256, absd (X (ix4 p q r w)) (Y (ix4 p q r w)))
    (h1 : ∀ p q : Fin 16, a1 (ix4 p q (0 : Fin 1) (0 : Fin 1))
      = ∑ r : Fin 256, ∑ w : Fin 256, absd (X (ix4 p q r w)) (Y (ix4 p q r w)) * bit (M (ix4 p q r w))) :
    colSum (F := Ideal) (subf (asMatrix (F := Ideal) a0) (asMatrix (F := Ideal) a1)) = vec (sumBg X Y M) := by
  choose x hx using hX
  choose y hy using hY
  refine vec_ext fun q => ?_
  rw [colSum_apply, vec_ix1]
  unfold sumBg
  refine Finset.sum_congr rfl fun p _ => ?_
  show asMatrix (F := Ideal) a0 (ix2 p q) - asMatrix (F := Ideal) a1 (ix2 p q) = _
  rw [asMatrix_apply, asMatrix_apply, h0, h1]
  simp only [hx, hy, absd_coe, bit]
  exact plane_sub (fun r w => max (x (ix4 p q r w) - y (ix4 p q r w)) (-(x (ix4 p q r w) - y (ix4 p q r w))))
    (fun r w => ((M (ix4 p q r w)).toNat : ℝ))

theorem bgC (h2 : ∀ p q : Fin 16, a2 (ix4 p q (0 : Fin 1) (0 : Fin 1))
      = ∑ r : Fin 256, ∑ w : Fin 256, bit (M (ix4 p q r w))) :
    colSum (F := Ideal) (subf (broadcastInDim S16x16 ![] bcast_S_S16x16 (constant (F := Ideal) S_ .f32 0x47800000#32))
        (asMatrix (F := Ideal) a2)) = vec (cntBg M) := by
  refine vec_ext fun q => ?_
  rw [colSum_apply, vec_ix1]
  unfold cntBg
  refine Finset.sum_congr rfl fun p _ => ?_
  show Ideal.ofBits .f32 0x47800000#32 - asMatrix (F := Ideal) a2 (ix2 p q) = _
  rw [asMatrix_apply, h2, lit65536]
  simp only [bit]
  exact plane_count (fun r w => ((M (ix4 p q r w)).toNat : ℝ))

/-- THE LINES' RESULT is the specification's, given what the five arrays hold and that the float arrays hold reals. -/
theorem tail_value (hX : ∀ i, ∃ r : ℝ, X i = (r : EReal)) (hY : ∀ i, ∃ r : ℝ, Y i = (r : EReal))
    (h0 : ∀ p q : Fin 16, a0 (ix4 p q (0 : Fin 1) (0 : Fin 1))
      = ∑ r : Fin 256, ∑ w : Fin 256, absd (X (ix4 p q r w)) (Y (ix4 p q r w)))
    (h1 : ∀ p q : Fin 16, a1 (ix4 p q (0 : Fin 1) (0 : Fin 1))
      = ∑ r : Fin 256, ∑ w : Fin 256, absd (X (ix4 p q r w)) (Y (ix4 p q r w)) * bit (M (ix4 p q r w)))
    (h2 : ∀ p q : Fin 16, a2 (ix4 p q (0 : Fin 1) (0 : Fin 1))
      = ∑ r : Fin 256, ∑ w : Fin 256, bit (M (ix4 p q r w)))
    (h3 : ∀ p q : Fin 16, a3 (ix4 p q (0 : Fin 1) (0 : Fin 1))
      = ∑ r : Fin 256, ∑ w : Fin 256, absd (X (ix4 p q r w)) (Y (ix4 p q r w)) * anyOf (fun q' => bit (M (ix4 p q' r w))))
    (h4 : ∀ p : Fin 16, a4 (ix4 p (0 : Fin 1) (0 : Fin 1) (0 : Fin 1))
      = ∑ r : Fin 256, ∑ w : Fin 256, anyOf (fun q' => bit (M (ix4 p q' r w)))) :
    tailTerm (F := Ideal) a0 a1 a2 a3 a4 = result bcast_S_S16 reducesTo_S16_S_d0 h_S_ X Y M := by
  unfold tailTerm
  rw [ratioS_eq, ratioV_eq, ratioV_eq, ratioV_eq, featS X Y M a1 h1, featC M a2 h2, allS X Y M a3 h3, allC M a4 h4,
    bgS X Y M a0 a1 hX hY h0 h1, bgC M a2 h2]
  rfl

end Value

end Cert.KernelIdeal.Side

end
-- ==== Proof.KerRun.lean ====
/- The idealized kernel's run with its result named. The frame run leaves each of the five arrays the region writes
   at the plane sums of the argument arrays, batch by batch and feature by feature, and the lines after the region turn
   those into the result; the mask words the region reads are the mask bits widened, so as numbers they are the bits.
   Under the precondition the float arrays hold real numbers, and the result is the specification's function of the
   argument arrays. -/
import proofs.«110176_j44032004718833_2_alg».proof.Proof.FrameKI
import proofs.«110176_j44032004718833_2_alg».proof.Proof.KerArr
import proofs.«110176_j44032004718833_2_alg».proof.Proof.KerTail
import proofs.«110176_j44032004718833_2_alg».proof.Proof.KerSide
import proofs.«110176_j44032004718833_2_alg».proof.Proof.Spec

noncomputable section

namespace Cert.KernelIdeal.Run

open Cert.KernelIdeal Cert.KernelIdeal.Gen Cert.KernelIdeal.Frame Cert.KernelIdeal.Pay Cert.KernelIdeal.Arr Cert.KernelIdeal.Tail
open Cert.KernelIdeal.Side Cert.MaskedMeans
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The mask words as numbers are the mask bits as numbers. -/
theorem maskB (c : Dev nD) :
    (fun i => wordBit ((V m c main_v0 : S16x16x256x256.Idx → BitVec 32) i))
      = fun i => bit ((m ((c : Thread nD τ).loc main_arg2) : S16x16x256x256.Idx → BitVec 1) i) := by
  funext i
  rw [V_main_v0]
  exact wordBit_extui_apply _ i

/-- What the result buffer holds after the lines that follow the region. -/
theorem value (c : Dev nD)
    (hX : ∀ i, ∃ r : ℝ, (m ((c : Thread nD τ).loc main_arg0) : S16x16x256x256.Idx → EReal) i = (r : EReal))
    (hY : ∀ i, ∃ r : ℝ, (m ((c : Thread nD τ).loc main_arg1) : S16x16x256x256.Idx → EReal) i = (r : EReal)) :
    Pipeline.afterTail₀ cfgs (dats (F := Ideal) m) 0 (V0 m) [hostOps1, hostOps1_1, hostOps1_2, hostOps1_3, hostOps1_4, hostOps1_5, hostOps1_6] c main_v41
      = result bcast_S_S16 reducesTo_S16_S_d0 h_S_ (m ((c : Thread nD τ).loc main_arg0)) (m ((c : Thread nD τ).loc main_arg1))
          (m ((c : Thread nD τ).loc main_arg2)) := by
  unfold Pipeline.afterTail₀
  rw [after_v41]
  have hB := maskB m c
  have hX0 := V_main_arg0 m c
  have hY0 := V_main_arg1 m c
  have a0 : Pipeline.withArrays (cfgs 0).spec c (V0 m c) (fun w => (dats (F := Ideal) m 0 c).arrAt w (cfgs 0).N) (Proc.devRef .tc main_v1_0)
      = arrF (stP (m ((c : Thread nD τ).loc main_arg0)) (m ((c : Thread nD τ).loc main_arg1))) :=
    ((Pipeline.withArrays_arr spec0 launch0.win.arr_inj c (V0 m c) (fun w => (dats (F := Ideal) m 0 c).arrAt w cfg0.N) 3).trans (final3 m c)).trans
      (by rw [hX0, hY0])
  have a1 : Pipeline.withArrays (cfgs 0).spec c (V0 m c) (fun w => (dats (F := Ideal) m 0 c).arrAt w (cfgs 0).N) (Proc.devRef .tc main_v1_1)
      = arrF (sfP (m ((c : Thread nD τ).loc main_arg0)) (m ((c : Thread nD τ).loc main_arg1))
          (fun i => bit ((m ((c : Thread nD τ).loc main_arg2) : S16x16x256x256.Idx → BitVec 1) i))) :=
    ((Pipeline.withArrays_arr spec0 launch0.win.arr_inj c (V0 m c) (fun w => (dats (F := Ideal) m 0 c).arrAt w cfg0.N) 4).trans (final4 m c)).trans
      (by rw [hX0, hY0]; exact congrArg (fun B : A4.Idx → EReal => arrF (sfP _ _ B)) hB)
  have a2 : Pipeline.withArrays (cfgs 0).spec c (V0 m c) (fun w => (dats (F := Ideal) m 0 c).arrAt w (cfgs 0).N) (Proc.devRef .tc main_v1_2)
      = arrF (cfP (fun i => bit ((m ((c : Thread nD τ).loc main_arg2) : S16x16x256x256.Idx → BitVec 1) i))) :=
    ((Pipeline.withArrays_arr spec0 launch0.win.arr_inj c (V0 m c) (fun w => (dats (F := Ideal) m 0 c).arrAt w cfg0.N) 5).trans (final5 m c)).trans
      (congrArg (fun B : A4.Idx → EReal => arrF (cfP B)) hB)
  have a3 : Pipeline.withArrays (cfgs 0).spec c (V0 m c) (fun w => (dats (F := Ideal) m 0 c).arrAt w (cfgs 0).N) (Proc.devRef .tc main_v1_3)
      = arrF (saP (m ((c : Thread nD τ).loc main_arg0)) (m ((c : Thread nD τ).loc main_arg1))
          (fun i => bit ((m ((c : Thread nD τ).loc main_arg2) : S16x16x256x256.Idx → BitVec 1) i))) :=
    ((Pipeline.withArrays_arr spec0 launch0.win.arr_inj c (V0 m c) (fun w => (dats (F := Ideal) m 0 c).arrAt w cfg0.N) 6).trans (final6 m c)).trans
      (by rw [hX0, hY0]; exact congrArg (fun B : A4.Idx → EReal => arrF (saP _ _ B)) hB)
  have a4 : Pipeline.withArrays (cfgs 0).spec c (V0 m c) (fun w => (dats (F := Ideal) m 0 c).arrAt w (cfgs 0).N) (Proc.devRef .tc main_v1_4)
      = arrS (caP (fun i => bit ((m ((c : Thread nD τ).loc main_arg2) : S16x16x256x256.Idx → BitVec 1) i))) :=
    ((Pipeline.withArrays_arr spec0 launch0.win.arr_inj c (V0 m c) (fun w => (dats (F := Ideal) m 0 c).arrAt w cfg0.N) 7).trans (final7 m c)).trans
      (congrArg (fun B : A4.Idx → EReal => arrS (caP B)) hB)
  rw [a0, a1, a2, a3, a4]
  exact tail_value _ _ _ _ _ _ _ _ hX hY (fun p q => rfl) (fun p q => rfl) (fun p q => rfl) (fun p q => rfl) (fun p => rfl)

/-- THE RUN: every weakly fair execution of the idealized kernel's program terminates with the result buffer at the
    specification's function of the argument arrays, and the argument arrays unchanged. -/
theorem run
    (hX : ∀ c : Dev nD, ∀ i, ∃ r : ℝ, (m ((c : Thread nD τ).loc main_arg0) : S16x16x256x256.Idx → EReal) i = (r : EReal))
    (hY : ∀ c : Dev nD, ∀ i, ∃ r : ℝ, (m ((c : Thread nD τ).loc main_arg1) : S16x16x256x256.Idx → EReal) i = (r : EReal)) :
    θ_run defs (onTc (τ := τ) (main (F := Ideal))) ⟨m, fun _ => 0, ρ⟩ (fun r => ∀ c : Dev nD,
      r.2.mem ((c.tc : Thread nD τ).loc main_v41)
          = result bcast_S_S16 reducesTo_S16_S_d0 h_S_ (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_v41 (Pipeline.mem_restRefs_of main_v41 (by decide) (by decide))).trans (value m c (hX c) (hY c)),
        args_of_framePost m (dats m) (A_eq m) r h c⟩)
    (run_main (F := Ideal) m ρ)

end Cert.KernelIdeal.Run

end
-- ==== Proof.LibPlaneSums.lean ====
import Idealize.ShloMosaic.PureOps.Ideal
import Idealize.ShloMosaic.PureOps.Ideal.Laws
import Idealize.ShloMosaic.Lib.ValueIdx
import Idealize.ShloMosaic.Lib.Pipeline.Value

/-!
# A sum over every axis but the second of an [a, b, c, d] array, read at an entry q

The host reduces axes 0, 2 and 3 at once: its result at `q` is the initial value plus the sum of the entries
`(p, q, r, w)` over all `p`, `r` and `w`. On the extended reals that is the triple sum
`∑ p, ∑ r, ∑ w, x (p, q, r, w)`, for any sizes: the entries a reduction over those axes sends to `q` are exactly the
ones whose second coordinate is `q`, and they are enumerated by the other three coordinates.
-/

noncomputable section

namespace Idealize.ShloMosaic.PlaneSums

open Idealize.ShloMosaic Idealize.ShloMosaic.ValueIdx

variable {a b c d : ℕ}

/-- The entries of an `[a, b, c, d]` array that a reduction over axes 0, 2 and 3 sends to `q` are the `(p, q, r, w)`:
    the filtered sum is the triple sum. -/
theorem sum_filter_drop_023 (h' : (⟨4, ![a, b, c, d]⟩ : Shape).ReducesTo [0, 2, 3] ⟨1, ![b]⟩)
    (x : (⟨4, ![a, b, c, d]⟩ : Shape).Idx → EReal) (q : Fin b) :
    ∑ i ∈ Finset.univ.filter (fun i => h'.drop i = ix1 q), x i
      = ∑ p : Fin a, ∑ r : Fin c, ∑ w : Fin d, x (ix4 p q r w) := by
  have hdrop : ∀ i : (⟨4, ![a, b, c, d]⟩ : Shape).Idx, h'.drop i = ix1 q ↔ (i 1).val = q.val := by
    intro i
    constructor
    · intro e
      exact congrArg (fun z : (⟨1, ![b]⟩ : Shape).Idx => (z 0).val) e
    · intro e
      funext t
      match t with
      | ⟨0, _⟩ => exact Fin.ext e
  have hR : ∑ p : Fin a, ∑ r : Fin c, ∑ w : Fin d, x (ix4 p q r w)
      = ∑ t : Fin a × Fin c × Fin d, x (ix4 t.1 q t.2.1 t.2.2) := by
    simp only [Fintype.sum_prod_type]
  rw [hR]
  refine Finset.sum_nbij' (fun i => ((⟨(i 0).val, (i 0).isLt⟩ : Fin a), (⟨(i 2).val, (i 2).isLt⟩ : Fin c), (⟨(i 3).val, (i 3).isLt⟩ : Fin d)))
    (fun t => ix4 t.1 q t.2.1 t.2.2) ?_ ?_ ?_ ?_ ?_
  · intro i _; exact Finset.mem_univ _
  · intro t _; exact Finset.mem_filter.2 ⟨Finset.mem_univ _, (hdrop _).2 rfl⟩
  · intro i hi
    have e := (hdrop i).1 (Finset.mem_filter.1 hi).2
    funext t
    match t with
    | ⟨0, _⟩ => rfl
    | ⟨1, _⟩ => exact Fin.ext e.symm
    | ⟨2, _⟩ => rfl
    | ⟨3, _⟩ => rfl
  · intro t _; rfl
  · intro i hi
    have e := (hdrop i).1 (Finset.mem_filter.1 hi).2
    refine congrArg x (funext fun t => ?_)
    match t with
    | ⟨0, _⟩ => rfl
    | ⟨1, _⟩ => exact Fin.ext e
    | ⟨2, _⟩ => rfl
    | ⟨3, _⟩ => rfl

/-- The host's sum over axes 0, 2 and 3 at `q`: the initial value plus the triple sum. -/
theorem hostReduceAdd_023 (h' : (⟨4, ![a, b, c, d]⟩ : Shape).ReducesTo [0, 2, 3] ⟨1, ![b]⟩)
    (x : (⟨4, ![a, b, c, d]⟩ : Shape).Idx → EReal) (init : EReal) (q : Fin b) :
    Ideal.hostReduceAdd h' x init (ix1 q) = init + ∑ p : Fin a, ∑ r : Fin c, ∑ w : Fin d, x (ix4 p q r w) := by
  unfold Ideal.hostReduceAdd
  rw [sum_filter_drop_023]

end Idealize.ShloMosaic.PlaneSums

end
-- ==== Proof.RefSide.lean ====
import proofs.«110176_j44032004718833_2_alg».proof.Proof.RefReadP
import proofs.«110176_j44032004718833_2_alg».proof.Proof.Spec
import proofs.«110176_j44032004718833_2_alg».proof.Proof.LibPlaneSums
import Idealize.ShloMosaic.PureOps.Reduce
import Idealize.ShloMosaic.PureOps.Ideal.Laws
import Idealize.ShloMosaic.Lib.ValueIdx

/-!
# The reference's result is the specification function

The reference computes, feature by feature, six sums over batch, row and column — of `|X - Y|` times a 0/1 weight and of
the weight alone, for three weights: the mask, its complement `1 - mask`, and the disjunction of the mask over the
features — then three vectors of means (sum over count where the count is positive), and the mean of the three means of
those vectors. Read at the extended reals every stage is exact, so:

* an entry of `|X - Y|` is `absd`, a converted mask bit is `bit`, the literal one is `1`, and the converted disjunction
  of the bits over the features is the largest of the bits as numbers (`anyOf`);
* each of the six sums at a feature `q` is the triple sum over batch, row and column of the entries `(p, q, r, w)`;
* the selects, quotients and final additions are the same terms the specification is spelt with.
-/

noncomputable section

namespace Cert.ReferenceIdeal.RefValue

open Cert.ReferenceIdeal Cert.ReferenceIdeal.Gen Cert.ReferenceIdeal.ReadP Cert.MaskedMeans Idealize.ShloMosaic
  Idealize.ShloMosaic.ValueIdx

/-! ## Entries -/

/-- A float array of the arguments' shape, and a mask of that shape. -/
abbrev FArr := (⟨S16x16x256x256, .f32⟩ : BufTy).Contents (Elt Ideal)
abbrev MArr := (⟨S16x16x256x256, .i1⟩ : BufTy).Contents (Elt Ideal)

/-- An entry of `|x0 - x1|`. -/
theorem v1_at (x0 x1 : FArr) (i : S16x16x256x256.Idx) : val_main_v1 (F := Ideal) x0 x1 i = absd (x0 i) (x1 i) := rfl

/-- A mask bit converted to a float is the bit as a number. -/
theorem v2_at (x2 : MArr) (i : S16x16x256x256.Idx) : val_main_v2 (F := Ideal) x2 i = bit (x2 i) := rfl

/-- The pattern of the literal `1.0`. -/
theorem one_f32 : Ideal.ofBits .f32 0x3F800000#32 = 1 := by
  simp [Ideal.ofBits, Ideal.ieee]
  exact_mod_cast (by norm_num : (8388608 : ℝ) * ((2 : ℝ) ^ 23)⁻¹ = 1)

theorem v3_at (i : S16x16x256x256.Idx) : val_main_v3 (F := Ideal) i = 1 := by
  rw [val_main_v3_apply, val_main_cst_apply]
  exact one_f32

/-- An entry of the complement `1 - mask`. -/
theorem v4_at (x2 : MArr) (i : S16x16x256x256.Idx) : val_main_v4 (F := Ideal) x2 i = 1 - bit (x2 i) := by
  rw [val_main_v4_apply, v3_at, v2_at]
  rfl

theorem v8_at (x0 x1 : FArr) (x2 : MArr) (i : S16x16x256x256.Idx) :
    val_main_v8 (F := Ideal) x0 x1 x2 i = absd (x0 i) (x1 i) * bit (x2 i) := rfl

theorem v19_at (x0 x1 : FArr) (x2 : MArr) (i : S16x16x256x256.Idx) :
    val_main_v19 (F := Ideal) x0 x1 x2 i = absd (x0 i) (x1 i) * (1 - bit (x2 i)) := by
  rw [val_main_v19_apply, v4_at, v1_at]
  rfl

/-- The host's sum over batch, row and column from a zero initial value, at a feature. -/
theorem sum023 (x : FVec Ideal S16x16x256x256 .f32) (c : FVec Ideal S_ .f32) (hc : c (Shape.Idx.first h_S_) = 0) (q : Fin 16) :
    Host.reduceAdd (F := Ideal) (φ := .f32) x c reducesTo_S16x16x256x256_S16_d0_2_3 h_S_ (ix1 q)
      = ∑ p : Fin 16, ∑ r : Fin 256, ∑ w : Fin 256, x (ix4 p q r w) := by
  simp only [Host.reduceAdd, Ideal.hostReduceAdd_def]
  rw [PlaneSums.hostReduceAdd_023, hc, zero_add]

/-- The zero splat the sums start from. -/
theorem zero_f32_at (i : S_.Idx) : constant (F := Ideal) S_ .f32 0x00000000#32 i = 0 := Ideal.ofBits_zero_f32

/-! ## The disjunction over the features -/

/-- The shape fact of a reduction over the feature axis, in the form that names the source index over a result index. -/
theorem red1 : S16x16x256x256.Reduces [1] S16x256x256 := by decide

/-- The source index over `(p, r, w)` with feature coordinate `k` is `(p, k, r, w)`. -/
theorem lift1 (p : Fin 16) (r w : Fin 256) (k : Fin 16) : red1.lift (ix3 p r w) k = ix4 p k r w := by
  funext c
  match c with
  | ⟨0, _⟩ => rfl
  | ⟨1, _⟩ => rfl
  | ⟨2, _⟩ => rfl
  | ⟨3, _⟩ => rfl

/-- The or-reduction over the features at `(p, r, w)`: the disjunction of the sixteen bits there. -/
theorem v5_at (x2 : MArr) (p : Fin 16) (r w : Fin 256) :
    val_main_v5 (F := Ideal) x2 (ix3 p r w)
      = (Finset.univ : Finset (Fin 16)).fold (fun a b : BitVec 1 => a ||| b) 0#1 (fun q => (x2 (ix4 p q r w) : BitVec 1)) := by
  unfold val_main_v5
  refine (Host.reduce_eq_fold_single IntOp.ori x2 _ reducesTo_S16x16x256x256_S16x256x256_d1 red1 h_S_ (ix3 p r w)).trans ?_
  have hf : (x2 ∘ red1.lift (ix3 p r w)) = fun q : Fin 16 => x2 (ix4 p q r w) := funext fun k => congrArg x2 (lift1 p r w k)
  rw [hf]
  rfl

/-- The two broadcasts read entry `(p, q, r, w)` from entry `(p, r, w)` of the reduction. -/
theorem idx_v6_v30 (p q : Fin 16) (r w : Fin 256) : idx_main_v6 (idx_main_v30 (ix4 p q r w)) = ix3 p r w := by
  funext a
  match a with
  | ⟨0, _⟩ => rfl
  | ⟨1, _⟩ => rfl
  | ⟨2, _⟩ => rfl

/-- An entry of the any-feature weight. -/
theorem v30_at (x2 : MArr) (p q : Fin 16) (r w : Fin 256) :
    val_main_v30 (F := Ideal) x2 (ix4 p q r w) = anyOf (fun q' => bit (x2 (ix4 p q' r w))) := by
  rw [val_main_v30_apply, val_main_v7_apply, val_main_v6_apply, idx_v6_v30, v5_at]
  exact bit_fold_or _

theorem v33_at (x2 : MArr) (p q : Fin 16) (r w : Fin 256) :
    val_main_v33 (F := Ideal) x2 (ix4 p q r w) = anyOf (fun q' => bit (x2 (ix4 p q' r w))) := by
  rw [val_main_v33_apply, val_main_v7_apply, val_main_v6_apply]
  show bit (val_main_v5 (F := Ideal) x2 (idx_main_v6 (idx_main_v30 (ix4 p q r w)))) = _
  rw [idx_v6_v30, v5_at]
  exact bit_fold_or _

/-! ## The six sums, feature by feature -/

theorem sum3_congr {f g : Fin 16 → Fin 256 → Fin 256 → EReal} (h : ∀ p r w, f p r w = g p r w) :
    ∑ p : Fin 16, ∑ r : Fin 256, ∑ w : Fin 256, f p r w = ∑ p : Fin 16, ∑ r : Fin 256, ∑ w : Fin 256, g p r w :=
  Finset.sum_congr rfl fun p _ => Finset.sum_congr rfl fun r _ => Finset.sum_congr rfl fun w _ => h p r w

theorem v9_eq (x0 x1 : FArr) (x2 : MArr) : val_main_v9 (F := Ideal) x0 x1 x2 = vec (sumFeat x0 x1 x2) := by
  refine vec_ext fun q => ?_
  rw [vec_ix1]
  unfold val_main_v9
  refine (sum023 _ _ (zero_f32_at _) q).trans ?_
  exact sum3_congr fun p r w => v8_at x0 x1 x2 _

theorem v10_eq (x2 : MArr) : val_main_v10 (F := Ideal) x2 = vec (cntFeat x2) := by
  refine vec_ext fun q => ?_
  rw [vec_ix1]
  unfold val_main_v10
  refine (sum023 _ _ (zero_f32_at _) q).trans ?_
  exact sum3_congr fun p r w => v2_at x2 _

theorem v20_eq (x0 x1 : FArr) (x2 : MArr) : val_main_v20 (F := Ideal) x0 x1 x2 = vec (sumBg x0 x1 x2) := by
  refine vec_ext fun q => ?_
  rw [vec_ix1]
  unfold val_main_v20
  refine (sum023 _ _ (zero_f32_at _) q).trans ?_
  exact sum3_congr fun p r w => v19_at x0 x1 x2 _

theorem v21_eq (x2 : MArr) : val_main_v21 (F := Ideal) x2 = vec (cntBg x2) := by
  refine vec_ext fun q => ?_
  rw [vec_ix1]
  unfold val_main_v21
  refine (sum023 _ _ (zero_f32_at _) q).trans ?_
  exact sum3_congr fun p r w => v4_at x2 _

theorem v31_at (x0 x1 : FArr) (x2 : MArr) (p q : Fin 16) (r w : Fin 256) :
    val_main_v31 (F := Ideal) x0 x1 x2 (ix4 p q r w)
      = absd (x0 (ix4 p q r w)) (x1 (ix4 p q r w)) * anyOf (fun q' => bit (x2 (ix4 p q' r w))) := by
  rw [val_main_v31_apply, v30_at, v1_at]
  rfl

theorem v32_eq (x0 x1 : FArr) (x2 : MArr) : val_main_v32 (F := Ideal) x0 x1 x2 = vec (sumAll x0 x1 x2) := by
  refine vec_ext fun q => ?_
  rw [vec_ix1]
  unfold val_main_v32
  refine (sum023 _ _ (zero_f32_at _) q).trans ?_
  exact sum3_congr fun p r w => v31_at x0 x1 x2 p q r w

theorem v34_eq (x2 : MArr) : val_main_v34 (F := Ideal) x2 = vec (fun _ => cntAll x2) := by
  refine vec_ext fun q => ?_
  rw [vec_ix1]
  unfold val_main_v34
  refine (sum023 _ _ (zero_f32_at _) q).trans ?_
  exact sum3_congr fun p r w => v33_at x2 p q r w

/-! ## The three means and the result -/

theorem v16_eq (x0 x1 : FArr) (x2 : MArr) :
    val_main_v16 (F := Ideal) x0 x1 x2
      = ratio bcast_S_S16 (val_main_v9 (F := Ideal) x0 x1 x2) (val_main_v10 (F := Ideal) x2) := by
  unfold val_main_v16 val_main_v12 val_main_v15 val_main_v14 val_main_v11 val_main_v13 val_main_call0_v1 val_main_call0_v0
    val_main_cst_2 val_main_cst_3 val_main_cst_4 ratio
  with_reducible rfl

theorem v27_eq (x0 x1 : FArr) (x2 : MArr) :
    val_main_v27 (F := Ideal) x0 x1 x2
      = ratio bcast_S_S16 (val_main_v20 (F := Ideal) x0 x1 x2) (val_main_v21 (F := Ideal) x2) := by
  unfold val_main_v27 val_main_v23 val_main_v26 val_main_v25 val_main_v22 val_main_v24 val_main_call1_v1 val_main_call1_v0
    val_main_cst_9 val_main_cst_10 val_main_cst_11 ratio
  with_reducible rfl

theorem v40_eq (x0 x1 : FArr) (x2 : MArr) :
    val_main_v40 (F := Ideal) x0 x1 x2
      = ratio bcast_S_S16 (val_main_v32 (F := Ideal) x0 x1 x2) (val_main_v34 (F := Ideal) x2) := by
  unfold val_main_v40 val_main_v36 val_main_v39 val_main_v38 val_main_v35 val_main_v37 val_main_call2_v1 val_main_call2_v0
    val_main_cst_16 val_main_cst_17 val_main_cst_18 ratio
  with_reducible rfl

theorem v45_eq (x0 x1 : FArr) (x2 : MArr) :
    val_main_v45 (F := Ideal) x0 x1 x2
      = combine reducesTo_S16_S_d0 h_S_ (val_main_v16 (F := Ideal) x0 x1 x2) (val_main_v40 (F := Ideal) x0 x1 x2)
          (val_main_v27 (F := Ideal) x0 x1 x2) := by
  unfold val_main_v45 val_main_v44 val_main_v43 val_main_v18 val_main_v42 val_main_v29 val_main_v17 val_main_v41 val_main_v28
    val_main_cst_5 val_main_cst_6 val_main_cst_12 val_main_cst_13 val_main_cst_19 val_main_cst_20 val_main_cst_21 combine mean16
  with_reducible rfl

/-- The reference's result, read at the extended reals, is the specification function of its arguments. -/
theorem ref_value (x0 x1 : (⟨S16x16x256x256, .f32⟩ : BufTy).Contents (Elt Ideal))
    (x2 : (⟨S16x16x256x256, .i1⟩ : BufTy).Contents (Elt Ideal)) :
    val_main_v45 (F := Ideal) x0 x1 x2 = result bcast_S_S16 reducesTo_S16_S_d0 h_S_ x0 x1 x2 := by
  unfold result
  rw [v45_eq, v16_eq, v40_eq, v27_eq, v9_eq, v10_eq, v32_eq, v34_eq, v20_eq, v21_eq]

end Cert.ReferenceIdeal.RefValue

end
-- ==== Proof.PreFinite.lean ====
import proofs.«110176_j44032004718833_2_alg».proof.Pre_finite_inputs
import Idealize.ShloMosaic.Lib.ReduceAll
import Idealize.ShloMosaic.Lib.ValueIdx
import Idealize.ShloMosaic.PureOps.Ideal
import Idealize.ShloMosaic.PureOps.Ideal.Laws

/-!
# The precondition read back: every float entry is a real number

The precondition says, of each float array, that every entry's absolute value is below +∞, all entries at once. On the
extended reals an entry whose absolute value is below +∞ is neither infinity, so it is (the image of) a real number.
-/

noncomputable section

namespace Cert.Pre_finite_inputs.Finite

open Idealize.ShloMosaic Cert.Pre_finite_inputs

instance : Subsingleton S_.Idx := ⟨fun a b => funext fun d => d.elim0⟩

/-- An extended real whose absolute value compares below the pattern of +∞ is a real. -/
theorem real_of_lt_top (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition both float arrays hold real numbers only. -/
theorem finite_of_pre [Facts] (x0 x1 : FVec Ideal S16x16x256x256 .f32) (x2 : IVec S16x16x256x256 1) (x3 : IVec S1 32)
    (h : fn (F := Ideal) x0 x1 x2 x3 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.mp h0
  exact ⟨fun i => real_of_lt_top (x0 i) (Host.reduce_andi_all _ _ _ _ _ ha i),
    fun i => real_of_lt_top (x1 i) (Host.reduce_andi_all _ _ _ _ _ hb i)⟩

end Cert.Pre_finite_inputs.Finite

end
-- ==== Proof.lean ====
/- The certificate of a masked mean-absolute-difference loss against its plain reference.

   The arrays are `X`, `Y` : [16, 16, 256, 256] (batch, feature, row, column) and a 0/1 mask `M` of that shape. For each
   feature the programs form three masked means of `|X - Y|` — over the feature's own mask, over its complement, and over
   the entries where some feature's mask is set — and return the mean of the three means over the features.
   The kernel handles one batch per grid point: it sums `|X - Y|`, `|X - Y| * M`, `M`, `|X - Y| * any M` and `any M` over
   the 256 x 256 plane, lanes first and then sublanes, and the host lines after it add the planes' sums over the batch,
   take the complement's sums as differences (total less masked; 65536 less the masked count) and form the means. The
   reference sums over batch, row and column at once. On the extended reals the two are one function of the arguments as
   soon as the float entries are real numbers — the precondition —, because only then is a difference of sums the sum of
   the differences; the order of the additions never matters.
   The three frames: each kernel program's run is the library's frame run of one region followed by host lines (the
   body loads three blocks and stores five small ones; the later lines write fresh buffers only); the reference is a
   straight line of host operations. The idealization rewrote nothing, so there is nothing to preserve. -/
import proofs.«110176_j44032004718833_2_alg».proof.Defs
import proofs.«110176_j44032004718833_2_alg».proof.Proof.Gen.Kernel
import proofs.«110176_j44032004718833_2_alg».proof.Proof.Gen.KernelIdeal
import proofs.«110176_j44032004718833_2_alg».proof.Proof.Gen.ReferenceIdeal
import proofs.«110176_j44032004718833_2_alg».proof.Proof.Gen.Pre_finite_inputs
import proofs.«110176_j44032004718833_2_alg».proof.Proof.FrameK
import proofs.«110176_j44032004718833_2_alg».proof.Proof.FrameKI
import proofs.«110176_j44032004718833_2_alg».proof.Proof.KerRun
import proofs.«110176_j44032004718833_2_alg».proof.Proof.RefRunP
import proofs.«110176_j44032004718833_2_alg».proof.Proof.RefReadP
import proofs.«110176_j44032004718833_2_alg».proof.Proof.RefSide
import proofs.«110176_j44032004718833_2_alg».proof.Proof.PreFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the result at the specification's function of the arguments: the kernel's by its
    run read through the plane sums and the laws of real sums, the reference's by its operations read one at a time. -/
theorem algebraic : Cert.algebraic_KernelIdeal_ReferenceIdeal := by
  intro m ρ m' ρ' hpre hagree
  have hfin := fun c => Cert.Pre_finite_inputs.Finite.finite_of_pre _ _ _ _ (hpre c)
  refine ⟨fun c => Cert.MaskedMeans.result Cert.KernelIdeal.Gen.bcast_S_S16 Cert.KernelIdeal.Gen.reducesTo_S16_S_d0 Cert.KernelIdeal.Gen.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ (fun c => (hfin c).1) (fun c => (hfin c).2), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v45_eq, Cert.ReferenceIdeal.RefValue.ref_value, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
